-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg19 : FVec F S128 .f32) (main_arg20 : FVec F S128x64 .f32) (main_arg21 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg20
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128x64 .f32) (main_arg21 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128x64 .f32) (main_arg21 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128x64 .f32) (main_arg21 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128x64 .f32) (main_arg21 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128x64 .f32) (main_arg21 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 96
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x64, .f32⟩
  | .hbm, ⟨95, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_c_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg10_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem10_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x64.size a ≤ S128x64.size a
  hwx3_8 : ∀ i : grid3.Coords, EltTy.bits .f32 = 32 ∨ (Rect.block (s := S128x64) S128x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x64.size a ≤ S50000x64.size a
  hwx3_10 : ∀ i : grid3.Coords, EltTy.bits .f32 = 32 ∨ (Rect.block (s := S50000x64) S5000x64.size (cc3_transform_10 i) (hinb3_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg4) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v44) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg20) S128x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v60) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v61) S5000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128x64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x1, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000, .f32⟩
  | 73 => ⟨S50000x1, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S1x64, .f32⟩
  | 99 => ⟨S50000x64, .f32⟩
  | 100 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call0_cst : Ref sig .tc := ⟨.hbm, 96, rfl⟩
abbrev main_call0_v0 : Ref sig .tc := ⟨.hbm, 97, rfl⟩
abbrev main_v63 : Ref sig .tc := ⟨.hbm, 98, rfl⟩
abbrev main_v64 : Ref sig .tc := ⟨.hbm, 99, rfl⟩
abbrev main_c_9 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_11 : Ref sig .tc := ⟨.hbm, 109, rfl⟩
abbrev main_v72 : Ref sig .tc := ⟨.hbm, 110, rfl⟩
abbrev main_v73 : Ref sig .tc := ⟨.hbm, 111, rfl⟩
abbrev main_c_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_13 : Ref sig .tc := ⟨.hbm, 119, rfl⟩
abbrev main_v80 : Ref sig .tc := ⟨.hbm, 120, rfl⟩
abbrev main_v81 : Ref sig .tc := ⟨.hbm, 121, rfl⟩
abbrev main_c_14 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_16 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_call1_cst : Ref sig .tc := ⟨.hbm, 159, rfl⟩
abbrev main_call1_v0 : Ref sig .tc := ⟨.hbm, 160, rfl⟩
abbrev main_v116 : Ref sig .tc := ⟨.hbm, 161, rfl⟩
abbrev main_v117 : Ref sig .tc := ⟨.hbm, 162, rfl⟩
abbrev main_c_17 : Ref sig .tc := ⟨.hbm, 163, rfl⟩
abbrev main_v118 : Ref sig .tc := ⟨.hbm, 164, rfl⟩
abbrev main_v119 : Ref sig .tc := ⟨.hbm, 165, rfl⟩
abbrev main_c_18 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_19 : Ref sig .tc := ⟨.hbm, 172, rfl⟩
abbrev main_v125 : Ref sig .tc := ⟨.hbm, 173, rfl⟩
abbrev main_v126 : Ref sig .tc := ⟨.hbm, 174, rfl⟩
abbrev main_c_20 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_21 : Ref sig .tc := ⟨.hbm, 182, rfl⟩
abbrev main_v133 : Ref sig .tc := ⟨.hbm, 183, rfl⟩
abbrev main_v134 : Ref sig .tc := ⟨.hbm, 184, rfl⟩
abbrev main_c_22 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_23 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_24 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_call2_cst : Ref sig .tc := ⟨.hbm, 222, rfl⟩
abbrev main_call2_v0 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with every unscoped buffer of the TensorCore named at the end: the fold of @main's
  host stretches and pallas_calls from the launch memory. The argument arrays end as launched, and the result
  buffer ends at what the last pallas_call's write-backs leave.
-/
import proofs.«103472_j87651692577500_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of each core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer and the arguments named. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ ∀ b ∈ Pipeline.ucRefs τ sig, r.2.mem (((c : Thread nD τ)).1, b) = W8 m ρ c b) :=
  (θ_run defs _ _).mono (fun r h c => ⟨h c _ (mem_uc main_v61 (by decide)), h c⟩) (run_all m ρ)

end Cert.KernelIdeal.Run

end
-- ==== Proof.Spec.lean ====
/-
  A three-layer graph convolution network, stated twice over the extended reals, and the law that joins the two
  statements.

  A graph on N nodes with E edges is given by, for every edge e, the node its message is read from (srcRow e),
  the node its coefficient is read at (dstRow e), for every node d the set of edges whose messages are summed
  into d (hits d), and a weight dinv d per node (the inverse square root of the node's degree).

  One convolution sums, into node d, the features hw of the source nodes, weighted by dinv(src)·dinv(dst), adds
  the node's own features weighted by dinv(d)², and a bias (refConv). The same convolution can be computed from
  the row-scaled features hws = hw · dinv: sum the scaled source rows, add the node's own scaled row, and scale
  the total by dinv(d) once (kerPre). The two agree when every edge summed into d has coefficient node d, and
  dinv(d) is a non-negative real number: multiplication by such a number distributes over sums of extended
  reals, whatever the summands are (Graph.Ok, conv_eq).

  Each layer is a matrix product, the convolution, a normalisation with given statistics and a rectifier; the
  network is three layers and a linear head (refNet, kerNet, net_eq).
-/
import Mathlib.Data.EReal.Operations
import Idealize.ShloMosaic.PureOps.Ideal
import Idealize.ShloMosaic.Lib.ValueIdx

noncomputable section

open scoped BigOperators

namespace Cert.Gcn

open Idealize.ShloMosaic Idealize.ShloMosaic.ValueIdx

/-- A matrix of extended reals, indexed as the library indexes rank-2 arrays. -/
abbrev Mat (a b : ℕ) := (⟨2, ![a, b]⟩ : Shape).Idx → EReal
/-- A vector of extended reals, indexed as the library indexes rank-1 arrays. -/
abbrev Vct (a : ℕ) := (⟨1, ![a]⟩ : Shape).Idx → EReal

/-- The graph as the convolution reads it. -/
structure Graph (N E : ℕ) where
  /-- the node an edge's message is read from -/
  srcRow : Fin E → Fin N
  /-- the node an edge's second coefficient is read at -/
  dstRow : Fin E → Fin N
  /-- the edges whose messages are summed into a node -/
  hits : Fin N → Finset (Fin E)
  /-- the weight of a node -/
  dinv : Fin N → EReal

/-- What the law needs of a graph. -/
structure Graph.Ok {N E : ℕ} (g : Graph N E) : Prop where
  dst_of_hit : ∀ d e, e ∈ g.hits d → g.dstRow e = d
  dinv_nonneg : ∀ d, 0 ≤ g.dinv d
  dinv_ne_top : ∀ d, g.dinv d ≠ ⊤

variable {N E : ℕ}

/-- A matrix product, entry by entry. -/
def dense {K C : ℕ} (h : Mat N K) (W : Mat K C) : Mat N C :=
  fun i => ∑ k : Fin K, h (ix2 (i 0) k) * W (ix2 k (i 1))

/-- Features scaled row by row with the node weights. -/
def scaled {C : ℕ} (g : Graph N E) (hw : Mat N C) : Mat N C :=
  fun i => hw i * g.dinv (i 0)

/-- The convolution with one coefficient per edge. -/
def refConv {C : ℕ} (g : Graph N E) (hw : Mat N C) (b : Vct C) : Mat N C := fun i =>
  ((0 + ∑ e ∈ g.hits (i 0), hw (ix2 (g.srcRow e) (i 1)) * (g.dinv (g.srcRow e) * g.dinv (g.dstRow e)))
    + hw i * (g.dinv (i 0) * g.dinv (i 0))) + b (ix1 (i 1))

/-- The convolution from row-scaled features, scaled once per node. -/
def kerPre {C : ℕ} (g : Graph N E) (hws : Mat N C) (b : Vct C) : Mat N C := fun i =>
  g.dinv (i 0) * ((0 + ∑ e ∈ g.hits (i 0), hws (ix2 (g.srcRow e) (i 1))) + hws i) + b (ix1 (i 1))

/-- Normalisation with given statistics, then the rectifier. -/
def bnRelu {C : ℕ} (eps : EReal) (pre : Mat N C) (gm be mu var : Vct C) : Mat N C := fun i =>
  max ((pre i - mu (ix1 (i 1))) * Ideal.rsqrt (var (ix1 (i 1)) + eps) * gm (ix1 (i 1)) + be (ix1 (i 1))) 0

/-- A product with a non-negative real number distributes over a finite sum of extended reals. -/
theorem mul_sum_of_nonneg {ι : Type*} (s : Finset ι) (f : ι → EReal) {D : EReal} (h0 : 0 ≤ D) (ht : D ≠ ⊤) :
    D * ∑ e ∈ s, f e = ∑ e ∈ s, D * f e := by
  classical
  induction s using Finset.induction_on with
  | empty => simp
  | insert a s ha ih =>
    rw [Finset.sum_insert ha, Finset.sum_insert ha, EReal.left_distrib_of_nonneg_of_ne_top h0 ht, ih]

/-- The two convolutions agree on a graph whose weights are non-negative reals. -/
theorem conv_eq {C : ℕ} (g : Graph N E) (hg : g.Ok) (hw : Mat N C) (b : Vct C) :
    kerPre g (scaled g hw) b = refConv g hw b := by
  funext i
  have h0 := hg.dinv_nonneg (i 0)
  have ht := hg.dinv_ne_top (i 0)
  unfold kerPre refConv scaled
  congr 1
  rw [EReal.left_distrib_of_nonneg_of_ne_top h0 ht, EReal.left_distrib_of_nonneg_of_ne_top h0 ht,
    mul_zero, mul_sum_of_nonneg _ _ h0 ht]
  congr 1
  · congr 1
    refine Finset.sum_congr rfl fun e he => ?_
    rw [hg.dst_of_hit _ e he]
    show g.dinv (i 0) * (hw (ix2 (g.srcRow e) (i 1)) * g.dinv (g.srcRow e)) = _
    rw [mul_comm, mul_assoc]
  · rw [mul_comm, mul_assoc]

/-- The network with one coefficient per edge. -/
def refNet {IC H OC : ℕ} (g : Graph N E) (eps : EReal) (x : Mat N IC)
    (W1 : Mat IC H) (b1 : Vct H) (W2 : Mat H H) (b2 : Vct H) (W3 : Mat H H) (b3 : Vct H)
    (g1 be1 m1 v1 g2 be2 m2 v2 g3 be3 m3 v3 : Vct H) (Wh : Mat H OC) (bh : Vct OC) : Mat N OC :=
  let h1 := bnRelu eps (refConv g (dense x W1) b1) g1 be1 m1 v1
  let h2 := bnRelu eps (refConv g (dense h1 W2) b2) g2 be2 m2 v2
  let h3 := bnRelu eps (refConv g (dense h2 W3) b3) g3 be3 m3 v3
  fun i => dense h3 Wh i + bh (ix1 (i 1))

/-- The network from row-scaled features. -/
def kerNet {IC H OC : ℕ} (g : Graph N E) (eps : EReal) (x : Mat N IC)
    (W1 : Mat IC H) (b1 : Vct H) (W2 : Mat H H) (b2 : Vct H) (W3 : Mat H H) (b3 : Vct H)
    (g1 be1 m1 v1 g2 be2 m2 v2 g3 be3 m3 v3 : Vct H) (Wh : Mat H OC) (bh : Vct OC) : Mat N OC :=
  let h1 := bnRelu eps (kerPre g (scaled g (dense x W1)) b1) g1 be1 m1 v1
  let h2 := bnRelu eps (kerPre g (scaled g (dense h1 W2)) b2) g2 be2 m2 v2
  let h3 := bnRelu eps (kerPre g (scaled g (dense h2 W3)) b3) g3 be3 m3 v3
  fun i => dense h3 Wh i + bh (ix1 (i 1))

/-- The two networks are one function. -/
theorem net_eq {IC H OC : ℕ} (g : Graph N E) (hg : g.Ok) (eps : EReal) (x : Mat N IC)
    (W1 : Mat IC H) (b1 : Vct H) (W2 : Mat H H) (b2 : Vct H) (W3 : Mat H H) (b3 : Vct H)
    (g1 be1 m1 v1 g2 be2 m2 v2 g3 be3 m3 v3 : Vct H) (Wh : Mat H OC) (bh : Vct OC) :
    kerNet g eps x W1 b1 W2 b2 W3 b3 g1 be1 m1 v1 g2 be2 m2 v2 g3 be3 m3 v3 Wh bh
      = refNet g eps x W1 b1 W2 b2 W3 b3 g1 be1 m1 v1 g2 be2 m2 v2 g3 be3 m3 v3 Wh bh := by
  unfold kerNet refNet
  simp only [conv_eq g hg]

end Cert.Gcn

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Region0.lean ====
/-
  The first pallas_call, as one function of the arrays it finds.

  The call tiles the 50000 rows in 10 blocks of 5000. At a block it multiplies the block's rows of x with the whole
  weight matrix and scales row r of the product with the row's entry of the one-column weight array. Row r of a
  block at point t is row 5000·t + r of the arrays, so the output array ends, entry by entry, at
  (Σ_k X(r,k)·W(k,q)) · D(r,0).
-/
import proofs.«103472_j87651692577500_2_alg».proof.Proof.Gen.KernelIdeal.Frame
import proofs.«103472_j87651692577500_2_alg».proof.Proof.Spec
import proofs.«103472_j87651692577500_2_alg».proof.Proof.LibMatmulPlain
import Idealize.ShloMosaic.Lib.Pipeline.Value
import Idealize.ShloMosaic.Lib.ValueLayout

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem hz : (![0, 0] : Fin 2 → Nat) = fun _ => 0 := funext fun a => by fin_cases a <;> rfl

/-- The whole-array function: the product's entry scaled by the row's weight. -/
def G (X : Mat 50000 128) (W : Mat 128 128) (D : Mat 50000 1) : Mat 50000 128 :=
  fun i => dense X W i * D (ix2 (i 0) (0 : Fin 1))

/-- The body's result at an entry of the block. -/
theorem out_apply (x0 : Vec Ideal S5000x128 .f32) (x1 : Vec Ideal S128x128 .f32) (x2 : Vec Ideal S5000x1 .f32)
    (p : Fin 5000) (q : Fin 128) :
    out0_3 (F := Ideal) x0 x1 x2 (ix2 p q) = (∑ k : Fin 128, x0 (ix2 p k) * x1 (ix2 k q)) * x2 (ix2 p (0 : Fin 1)) := by
  unfold out0_3
  rw [View.canon_unit_zero hz]
  simp only [View.ld_unit_zero (S := S5000x128) hz, View.ld_unit_zero (S := S128x128) hz, View.ld_unit_zero (S := S5000x1) hz]
  unfold k0_pay1
  have hd : dot_S5000x128_S128x128_S5000x128_1_0_0_1_n_n = DotDims.plain 5000 128 128 := rfl
  rw [hd, shapeCast_self]
  rw [mulf_apply, MatmulPlain.matmul_zero_apply, broadcastTo_apply x2 _ (ix2 p q) (ix2 p (0 : Fin 1)) (fun a => by
    match a with
    | ⟨0, _⟩ => rfl
    | ⟨1, _⟩ => rfl)]
  rfl

section
variable (V : (c : Dev nD) → (b : Ref sig .tc) → Buf (Elt Ideal) ((c : Thread nD τ).loc b))

/-- The printed index maps over the grid: the row-blocked windows move with the output, the others stay. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem idx_onto : ∀ (q0 : Fin 10), ∃ t : Fin cfg0.N, win0_3.index t = ![q0.val, 0] :=
  (by decide +kernel : ∀ (q0 : Fin 10), ∃ t : Fin grid0.N, win0_3.index t = ![q0.val, 0])

/-- What point t writes back is block t of the whole-array function of the arrays the region finds. -/
theorem flushed_eq (c : Dev nD) (t : Fin cfg0.N) :
    (dat0 V c).flushed 3 t = ((cfg0.win 3).blk t).view.read (Elt Ideal) (G (V c main_arg0) (V c main_arg2) (V c main_v11)) := by
  show (cfg0.win 3).cut (grid0.coords t) ((dat0 V c).after 3 t) = _
  rw [after0_3]
  funext j
  obtain ⟨p, q, rfl⟩ : ∃ (p : Fin 5000) (q : Fin 128), j = ix2 p q := ⟨j 0, j 1, eq_ix2 j⟩
  show out0_3 (iblk0 V c 0 t) (iblk0 V c 1 t) (iblk0 V c 2 t) (ix2 p q) = G (V c main_arg0) (V c main_arg2) (V c main_v11) (((cfg0.win 3).blk t).view.emb (ix2 p q))
  refine (out_apply _ _ _ p q).trans ?_
  obtain ⟨e0, e1, e2, e3, e4, e5, e6, e7⟩ := idx_facts t
  have hr : ∀ u : Fin 128, ((cfg0.win 0).blk t).view.emb (ix2 p u)
      = ix2 ((((cfg0.win 3).blk t).view.emb (ix2 p q)) 0) u := by
    intro u; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * u.val = u.val; omega
  have hw : ∀ k : Fin 128, ((cfg0.win 1).blk t).view.emb (ix2 k q)
      = ix2 k ((((cfg0.win 3).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hd : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  have key : ∀ (X : S50000x128.Idx → EReal) (Wt : S128x128.Idx → EReal) (D : S50000x1.Idx → EReal),
      (∑ k, X (((cfg0.win 0).blk t).view.emb (ix2 p k)) * Wt (((cfg0.win 1).blk t).view.emb (ix2 k q)))
        * D (((cfg0.win 2).blk t).view.emb (ix2 p (0 : Fin 1))) = G X Wt D (((cfg0.win 3).blk t).view.emb (ix2 p q)) := by
    intro X Wt D
    unfold G dense
    simp only [hr, hw, hd]
    rfl
  exact key (V c main_arg0) (V c main_arg2) (V c main_v11)

/-- An index is in point t's block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The blocks of rows cover the array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the whole-array function of the arrays the region finds. -/
theorem final (c : Dev nD) :
    (dat0 V c).arrAt 3 cfg0.N = G (V c main_arg0) (V c main_arg2) (V c main_v11) :=
  (dat0 V c).arrAt_eq_of_cover 3 (G (V c main_arg0) (V c main_arg2) (V c main_v11)) (fun t _ => flushed_eq V c t) cover

end

end Cert.Gcn.Region0

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.Graph.lean ====
/-
  The graph of the network, read off the edge array.

  The edge array has two rows of node numbers: the sources and the destinations. A node number is read signed; a
  gather reads a negative number as counted from the end and clamps the result into the node range, a scatter drops
  an update whose number is outside the node range. The degree of a node is one more than the number of edges
  scattered into it, and its weight the inverse square root of the degree.
-/
import proofs.«103472_j87651692577500_2_alg».proof.Proof.Gen.ReferenceIdeal.Read
import proofs.«103472_j87651692577500_2_alg».proof.Proof.Spec
import proofs.«103472_j87651692577500_2_alg».proof.Proof.LibGatherRows
import proofs.«103472_j87651692577500_2_alg».proof.Proof.LibScatterRows

noncomputable section

namespace Cert.Gcn

open Idealize.ShloMosaic Idealize.ShloMosaic.ValueIdx Cert.ReferenceIdeal Cert.ReferenceIdeal.Read

/-- The graph the two programs read off the edge array `x1`: the source row of an edge is its first number as a
    gather reads it, the coefficient row its second number as a gather reads it, the edges summed into a node are
    those whose second number, as a scatter reads it, is the node, and the weight of a node is the inverse square
    root of its degree. -/
def graphOf (x1 : (⟨S2x800000, .i32⟩ : BufTy).Contents (Elt Ideal)) : Graph 50000 800000 where
  srcRow := GatherRows.rowOf (N := 50000) (by norm_num) (val_main_v17 (F := Ideal) x1)
  dstRow := GatherRows.rowOf (N := 50000) (by norm_num) (val_main_v24 (F := Ideal) x1)
  hits := ScatterRows.hits (N := 50000) (val_main_v6 (F := Ideal) x1)
  dinv := fun d => val_main_v10 (F := Ideal) x1 (ix1 d)

/-- The literal the normalisation adds to a variance, as an extended real. -/
def eps : EReal := Ideal.ofBits .f32 0x3727C5AC#32

end Cert.Gcn

end
-- ==== Proof.Hidden.lean ====
/-
  The hidden state a fused pallas_call forms from the arrays it finds, entry by entry: the aggregate plus the node's
  own scaled row, scaled by the node's weight (a one-column array), plus the bias, normalised with the given
  statistics (one-row arrays) and rectified.
-/
import proofs.«103472_j87651692577500_2_alg».proof.Proof.Graph

noncomputable section

namespace Cert.Gcn

open Idealize.ShloMosaic Idealize.ShloMosaic.ValueIdx

/-- The rectified, normalised convolution of rows, from the aggregate `A`, the scaled features `Hs`, the weight column `D`
    and the one-row parameters (bias, scale, shift, mean, variance). -/
def hidden {n C : ℕ} (A Hs : Mat n C) (D : Mat n 1) (b g be mu var : Mat 1 C) : Mat n C := fun j =>
  max ((((D (ix2 (j 0) (0 : Fin 1)) * (A j + Hs j) + b (ix2 (0 : Fin 1) (j 1))) - mu (ix2 (0 : Fin 1) (j 1)))
      * Ideal.rsqrt (var (ix2 (0 : Fin 1) (j 1)) + eps)) * g (ix2 (0 : Fin 1) (j 1)) + be (ix2 (0 : Fin 1) (j 1))) 0

/-- The hidden state of a row depends on that row of the aggregate and of the scaled features, on the row's weight and
    on the parameters: a block whose row p is row R of the arrays, with the same parameters, has in row p the arrays'
    hidden state of row R. -/
theorem hidden_rows {n N C : ℕ} (a hs : Mat n C) (d : Mat n 1) (b' g' be' mu' var' : Mat 1 C)
    (A Hs : Mat N C) (D : Mat N 1) (b g be mu var : Mat 1 C)
    (p : Fin n) (R : Fin N) (ha : ∀ u, a (ix2 p u) = A (ix2 R u)) (hh : ∀ u, hs (ix2 p u) = Hs (ix2 R u))
    (hd : d (ix2 p (0 : Fin 1)) = D (ix2 R (0 : Fin 1)))
    (hb : ∀ u, b' (ix2 (0 : Fin 1) u) = b (ix2 (0 : Fin 1) u)) (hg : ∀ u, g' (ix2 (0 : Fin 1) u) = g (ix2 (0 : Fin 1) u))
    (hbe : ∀ u, be' (ix2 (0 : Fin 1) u) = be (ix2 (0 : Fin 1) u)) (hmu : ∀ u, mu' (ix2 (0 : Fin 1) u) = mu (ix2 (0 : Fin 1) u))
    (hvar : ∀ u, var' (ix2 (0 : Fin 1) u) = var (ix2 (0 : Fin 1) u)) (k : Fin C) :
    hidden a hs d b' g' be' mu' var' (ix2 p k) = hidden A Hs D b g be mu var (ix2 R k) := by
  show max ((((d (ix2 p (0 : Fin 1)) * (a (ix2 p k) + hs (ix2 p k)) + b' (ix2 (0 : Fin 1) k)) - mu' (ix2 (0 : Fin 1) k))
      * Ideal.rsqrt (var' (ix2 (0 : Fin 1) k) + eps)) * g' (ix2 (0 : Fin 1) k) + be' (ix2 (0 : Fin 1) k)) 0
    = max ((((D (ix2 R (0 : Fin 1)) * (A (ix2 R k) + Hs (ix2 R k)) + b (ix2 (0 : Fin 1) k)) - mu (ix2 (0 : Fin 1) k))
      * Ideal.rsqrt (var (ix2 (0 : Fin 1) k) + eps)) * g (ix2 (0 : Fin 1) k) + be (ix2 (0 : Fin 1) k)) 0
  rw [ha, hh, hd, hb, hg, hbe, hmu, hvar]

/-- A one-row array spread over the rows of a block, read at an entry. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => simp [ix2]
  | ⟨1, _⟩ =>
    by_cases hb : b = 1
    · subst hb
      have : j.val = 0 := by omega
      simp [ix2, this]
    · simp [ix2, hb]

end Cert.Gcn

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Region1.lean ====
/-
  The second pallas_call, as one function of the arrays it finds.

  The call tiles the 50000 rows in 10 blocks of 5000. At a block it forms the hidden state of the block's rows (the
  aggregate plus the rows' own scaled features, scaled by the rows' weights, plus the bias; normalised and
  rectified), multiplies it with the whole weight matrix and scales row r of the product with the row's weight.
  Row r of a block at point t is row 5000·t + r of the arrays, so the output array ends, entry by entry, at
  (Σ_k hidden(r,k)·W(k,q)) · D(r,0).
-/
import proofs.«103472_j87651692577500_2_alg».proof.Proof.Gen.KernelIdeal.Frame
import proofs.«103472_j87651692577500_2_alg».proof.Proof.Hidden
import proofs.«103472_j87651692577500_2_alg».proof.Proof.LibMatmulPlain
import proofs.«103472_j87651692577500_2_alg».proof.Proof.LibKeepdims
import Idealize.ShloMosaic.Lib.Pipeline.Value
import Idealize.ShloMosaic.Lib.ValueLayout

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem hz : (![0, 0] : Fin 2 → Nat) = fun _ => 0 := funext fun a => by fin_cases a <;> rfl

/-- The whole-array function: the hidden state times the weights, scaled by the row's weight. -/
def G (A Hs : Mat 50000 128) (D : Mat 50000 1) (b g be mu var : Mat 1 128) (W : Mat 128 128) : Mat 50000 128 :=
  fun i => dense (hidden A Hs D b g be mu var) W i * D (ix2 (i 0) (0 : Fin 1))

/-- The body's result at an entry of the block. -/
theorem out_apply (x0 x1 : Vec Ideal S5000x128 .f32) (x2 : Vec Ideal S5000x1 .f32)
    (x3 x4 x5 x6 x7 : Vec Ideal S1x128 .f32) (x8 : Vec Ideal S128x128 .f32) (p : Fin 5000) (q : Fin 128) :
    out1_9 (F := Ideal) x0 x1 x2 x3 x4 x5 x6 x7 x8 (ix2 p q)
      = (∑ k : Fin 128, hidden x0 x1 x2 x3 x4 x5 x6 x7 (ix2 p k) * x8 (ix2 k q)) * x2 (ix2 p (0 : Fin 1)) := by
  unfold out1_9
  rw [View.canon_unit_zero hz]
  simp only [View.ld_unit_zero (S := S5000x128) hz, View.ld_unit_zero (S := S128x128) hz,
    View.ld_unit_zero (S := S5000x1) hz, View.ld_unit_zero (S := S1x128) hz]
  unfold k1_pay1 k1_pay2 k1_pay3
  have hd : dot_S5000x128_S128x128_S5000x128_1_0_0_1_n_n = DotDims.plain 5000 128 128 := rfl
  rw [hd]
  simp only [shapeCast_self]
  rw [mulf_apply, MatmulPlain.matmul_zero_apply, Keepdims.broadcastTo_a1_ab_apply]
  congr 1
  refine Finset.sum_congr rfl fun k _ => ?_
  congr 1
  unfold k1_pay2
  simp only [shapeCast_self]
  rw [truncf_apply, maximumf_apply, addf_apply, mulf_apply, mulf_apply, subf_apply, addf_apply, mulf_apply, addf_apply,
    Keepdims.broadcastTo_a1_ab_apply, broadcastTo_1b_ab_apply, broadcastTo_1b_ab_apply, broadcastTo_1b_ab_apply,
    broadcastTo_1b_ab_apply, broadcastTo_1b_ab_apply, broadcast_apply,
    show FloatOps.ofBits (F := Ideal) FTy.f32 0#32 = (0 : EReal) from Ideal.ofBits_zero_f32]
  unfold hidden
  rfl

/-- The key step over arbitrary arrays and arbitrary index embeddings: when row p of the row-blocked windows is row
    I 0 of their arrays, the whole windows are their arrays, and column q of the output block is column I 1, the body's
    entry (p, q) is the whole-array function at I. -/
theorem key_abs (A Hs : Mat 50000 128) (D : Mat 50000 1) (b g be mu var : Mat 1 128) (W : Mat 128 128)
    (E0 E1 : S5000x128.Idx → S50000x128.Idx) (E2 : S5000x1.Idx → S50000x1.Idx)
    (E3 E4 E5 E6 E7 : S1x128.Idx → S1x128.Idx) (E8 : S128x128.Idx → S128x128.Idx)
    (I : S50000x128.Idx) (p : Fin 5000) (q : Fin 128)
    (h0 : ∀ u : Fin 128, E0 (ix2 p u) = ix2 (I 0) u) (h1 : ∀ u : Fin 128, E1 (ix2 p u) = ix2 (I 0) u)
    (h2 : E2 (ix2 p (0 : Fin 1)) = ix2 (I 0) (0 : Fin 1))
    (e3 : ∀ y, E3 y = y) (e4 : ∀ y, E4 y = y) (e5 : ∀ y, E5 y = y) (e6 : ∀ y, E6 y = y) (e7 : ∀ y, E7 y = y)
    (e8 : ∀ y, E8 y = y) (hq : I 1 = q) :
    (∑ k : Fin 128, hidden (fun y => A (E0 y)) (fun y => Hs (E1 y)) (fun y => D (E2 y)) (fun y => b (E3 y))
        (fun y => g (E4 y)) (fun y => be (E5 y)) (fun y => mu (E6 y)) (fun y => var (E7 y)) (ix2 p k)
          * W (E8 (ix2 k q))) * D (E2 (ix2 p (0 : Fin 1)))
      = G A Hs D b g be mu var W I := by
  rw [h2]
  unfold G dense
  rw [hq]
  refine congrArg (· * D (ix2 (I 0) (0 : Fin 1))) (Finset.sum_congr rfl fun k _ => ?_)
  rw [e8, hidden_rows (fun y => A (E0 y)) (fun y => Hs (E1 y)) (fun y => D (E2 y)) (fun y => b (E3 y)) (fun y => g (E4 y))
    (fun y => be (E5 y)) (fun y => mu (E6 y)) (fun y => var (E7 y)) A Hs D b g be mu var p (I 0)
    (fun u => congrArg A (h0 u)) (fun u => congrArg Hs (h1 u)) (congrArg D h2)
    (fun _ => congrArg b (e3 _)) (fun _ => congrArg g (e4 _)) (fun _ => congrArg be (e5 _)) (fun _ => congrArg mu (e6 _))
    (fun _ => congrArg var (e7 _)) k]

section
variable (V : (c : Dev nD) → (b : Ref sig .tc) → Buf (Elt Ideal) ((c : Thread nD τ).loc b))

/-- The printed index maps over the grid: the row-blocked windows move with the output, the others stay. -/
theorem idx_facts : ∀ t : Fin cfg1.N,
    (win1_0.index t (0 : Fin 2) = win1_9.index t (0 : Fin 2) ∧ win1_0.index t (1 : Fin 2) = 0)
    ∧ (win1_1.index t (0 : Fin 2) = win1_9.index t (0 : Fin 2) ∧ win1_1.index t (1 : Fin 2) = 0)
    ∧ (win1_2.index t (0 : Fin 2) = win1_9.index t (0 : Fin 2) ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (1 : Fin 2) = 0 ∧ win1_9.index t (0 : Fin 2) ≤ 9) :=
  (by decide +kernel : ∀ t : Fin grid1.N, _)

/-- Every block of rows is some point's. -/
theorem idx_onto : ∀ (q0 : Fin 10), ∃ t : Fin cfg1.N, win1_9.index t = ![q0.val, 0] :=
  (by decide +kernel : ∀ (q0 : Fin 10), ∃ t : Fin grid1.N, win1_9.index t = ![q0.val, 0])

/-- Row p of window 0's block is the output block's row of the arrays. -/
theorem emb0 (t : Fin cfg1.N) (p : Fin 5000) (q : Fin 128) (u : Fin 128) :
    ((cfg1.win 0).blk t).view.emb (ix2 p u) = ix2 ((((cfg1.win 9).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_0.index t (0 : Fin 2) * 5000 + 1 * p.val = win1_9.index t (0 : Fin 2) * 5000 + 1 * p.val; omega
  | ⟨1, _⟩ => show win1_0.index t (1 : Fin 2) * 128 + 1 * u.val = u.val; omega

/-- Row p of window 1's block is the output block's row of the arrays. -/
theorem emb1 (t : Fin cfg1.N) (p : Fin 5000) (q : Fin 128) (u : Fin 128) :
    ((cfg1.win 1).blk t).view.emb (ix2 p u) = ix2 ((((cfg1.win 9).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_1.index t (0 : Fin 2) * 5000 + 1 * p.val = win1_9.index t (0 : Fin 2) * 5000 + 1 * p.val; omega
  | ⟨1, _⟩ => show win1_1.index t (1 : Fin 2) * 128 + 1 * u.val = u.val; omega

/-- Row p of the weight column's block is the output block's row of the array. -/
theorem emb2 (t : Fin cfg1.N) (p : Fin 5000) (q : Fin 128) :
    ((cfg1.win 2).blk t).view.emb (ix2 p (0 : Fin 1)) = ix2 ((((cfg1.win 9).blk t).view.emb (ix2 p q)) 0) (0 : Fin 1) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_2.index t (0 : Fin 2) * 5000 + 1 * p.val = win1_9.index t (0 : Fin 2) * 5000 + 1 * p.val; omega
  | ⟨1, _⟩ => show win1_2.index t (1 : Fin 2) * 1 + 1 * 0 = 0; omega

/-- Window 3's block is its whole array. -/
theorem emb3 (t : Fin cfg1.N) (y : S1x128.Idx) : ((cfg1.win 3).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array. -/
theorem emb4 (t : Fin cfg1.N) (y : S1x128.Idx) : ((cfg1.win 4).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array. -/
theorem emb5 (t : Fin cfg1.N) (y : S1x128.Idx) : ((cfg1.win 5).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array. -/
theorem emb6 (t : Fin cfg1.N) (y : S1x128.Idx) : ((cfg1.win 6).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block is its whole array. -/
theorem emb7 (t : Fin cfg1.N) (y : S1x128.Idx) : ((cfg1.win 7).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8's block is its whole array. -/
theorem emb8 (t : Fin cfg1.N) (y : S128x128.Idx) : ((cfg1.win 8).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Column q of the output block is column q of the array. -/
theorem emb9_col (t : Fin cfg1.N) (p : Fin 5000) (q : Fin 128) : (((cfg1.win 9).blk t).view.emb (ix2 p q)) 1 = q := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  apply Fin.ext
  show win1_9.index t (1 : Fin 2) * 128 + 1 * q.val = q.val; omega

/-- What point t writes back is block t of the whole-array function of the arrays the region finds. -/
theorem flushed_eq (c : Dev nD) (t : Fin cfg1.N) :
    (dat1 V c).flushed 9 t = ((cfg1.win 9).blk t).view.read (Elt Ideal)
      (G (V c main_v22) (V c main_v12) (V c main_v11) (V c main_v23) (V c main_v24)
      (V c main_v25) (V c main_v26) (V c main_v27) (V c main_arg4)) := by
  show (cfg1.win 9).cut (grid1.coords t) ((dat1 V c).after 9 t) = _
  rw [after1_9]
  funext j
  obtain ⟨p, q, rfl⟩ : ∃ (p : Fin 5000) (q : Fin 128), j = ix2 p q := ⟨j 0, j 1, eq_ix2 j⟩
  show out1_9 (iblk1 V c 0 t) (iblk1 V c 1 t) (iblk1 V c 2 t) (iblk1 V c 3 t) (iblk1 V c 4 t)
      (iblk1 V c 5 t) (iblk1 V c 6 t) (iblk1 V c 7 t) (iblk1 V c 8 t) (ix2 p q)
    = G (V c main_v22) (V c main_v12) (V c main_v11) (V c main_v23) (V c main_v24)
      (V c main_v25) (V c main_v26) (V c main_v27) (V c main_arg4) (((cfg1.win 9).blk t).view.emb (ix2 p q))
  refine (out_apply _ _ _ _ _ _ _ _ _ p q).trans ?_
  exact key_abs (V c main_v22) (V c main_v12) (V c main_v11) (V c main_v23) (V c main_v24)
    (V c main_v25) (V c main_v26) (V c main_v27) (V c main_arg4) ((cfg1.win 0).blk t).view.emb ((cfg1.win 1).blk t).view.emb
    ((cfg1.win 2).blk t).view.emb ((cfg1.win 3).blk t).view.emb ((cfg1.win 4).blk t).view.emb ((cfg1.win 5).blk t).view.emb
    ((cfg1.win 6).blk t).view.emb ((cfg1.win 7).blk t).view.emb ((cfg1.win 8).blk t).view.emb
    (((cfg1.win 9).blk t).view.emb (ix2 p q)) p q (emb0 t p q) (emb1 t p q) (emb2 t p q) (emb3 t) (emb4 t) (emb5 t) (emb6 t)
    (emb7 t) (emb8 t) (emb9_col t p q)

/-- An index is in point t's block iff each coordinate is in the block's range. -/
theorem mem_blk (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v28).slice (win1_9.rect t)).set ↔ _
  rw [View.set_slice_whole, Rect.mem_set_unit]
  exact Iff.rfl

/-- The blocks of rows cover the array. -/
theorem cover (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array after the region: the whole-array function of the arrays the region finds. -/
theorem final (c : Dev nD) :
    (dat1 V c).arrAt 9 cfg1.N = G (V c main_v22) (V c main_v12) (V c main_v11) (V c main_v23) (V c main_v24)
      (V c main_v25) (V c main_v26) (V c main_v27) (V c main_arg4) :=
  (dat1 V c).arrAt_eq_of_cover 9 (G (V c main_v22) (V c main_v12) (V c main_v11) (V c main_v23) (V c main_v24)
      (V c main_v25) (V c main_v26) (V c main_v27) (V c main_arg4)) (fun t _ => flushed_eq V c t) cover

end

end Cert.Gcn.Region1

end
-- ==== Proof.Region2.lean ====
/-
  The third pallas_call, as one function of the arrays it finds.

  The call tiles the 50000 rows in 10 blocks of 5000. At a block it forms the hidden state of the block's rows (the
  aggregate plus the rows' own scaled features, scaled by the rows' weights, plus the bias; normalised and
  rectified), multiplies it with the whole weight matrix and scales row r of the product with the row's weight.
  Row r of a block at point t is row 5000·t + r of the arrays, so the output array ends, entry by entry, at
  (Σ_k hidden(r,k)·W(k,q)) · D(r,0).
-/
import proofs.«103472_j87651692577500_2_alg».proof.Proof.Gen.KernelIdeal.Frame
import proofs.«103472_j87651692577500_2_alg».proof.Proof.Hidden
import proofs.«103472_j87651692577500_2_alg».proof.Proof.LibMatmulPlain
import proofs.«103472_j87651692577500_2_alg».proof.Proof.LibKeepdims
import Idealize.ShloMosaic.Lib.Pipeline.Value
import Idealize.ShloMosaic.Lib.ValueLayout

set_option maxRecDepth 16384

noncomputable section

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem hz : (![0, 0] : Fin 2 → Nat) = fun _ => 0 := funext fun a => by fin_cases a <;> rfl

/-- The whole-array function: the hidden state times the weights, scaled by the row's weight. -/
def G (A Hs : Mat 50000 128) (D : Mat 50000 1) (b g be mu var : Mat 1 128) (W : Mat 128 128) : Mat 50000 128 :=
  fun i => dense (hidden A Hs D b g be mu var) W i * D (ix2 (i 0) (0 : Fin 1))

/-- The body's result at an entry of the block. -/
theorem out_apply (x0 x1 : Vec Ideal S5000x128 .f32) (x2 : Vec Ideal S5000x1 .f32)
    (x3 x4 x5 x6 x7 : Vec Ideal S1x128 .f32) (x8 : Vec Ideal S128x128 .f32) (p : Fin 5000) (q : Fin 128) :
    out2_9 (F := Ideal) x0 x1 x2 x3 x4 x5 x6 x7 x8 (ix2 p q)
      = (∑ k : Fin 128, hidden x0 x1 x2 x3 x4 x5 x6 x7 (ix2 p k) * x8 (ix2 k q)) * x2 (ix2 p (0 : Fin 1)) := by
  unfold out2_9
  rw [View.canon_unit_zero hz]
  simp only [View.ld_unit_zero (S := S5000x128) hz, View.ld_unit_zero (S := S128x128) hz,
    View.ld_unit_zero (S := S5000x1) hz, View.ld_unit_zero (S := S1x128) hz]
  unfold k2_pay1 k2_pay2 k2_pay3
  have hd : dot_S5000x128_S128x128_S5000x128_1_0_0_1_n_n = DotDims.plain 5000 128 128 := rfl
  rw [hd]
  simp only [shapeCast_self]
  rw [mulf_apply, MatmulPlain.matmul_zero_apply, Keepdims.broadcastTo_a1_ab_apply]
  congr 1
  refine Finset.sum_congr rfl fun k _ => ?_
  congr 1
  unfold k2_pay2
  simp only [shapeCast_self]
  rw [truncf_apply, maximumf_apply, addf_apply, mulf_apply, mulf_apply, subf_apply, addf_apply, mulf_apply, addf_apply,
    Keepdims.broadcastTo_a1_ab_apply, broadcastTo_1b_ab_apply, broadcastTo_1b_ab_apply, broadcastTo_1b_ab_apply,
    broadcastTo_1b_ab_apply, broadcastTo_1b_ab_apply, broadcast_apply,
    show FloatOps.ofBits (F := Ideal) FTy.f32 0#32 = (0 : EReal) from Ideal.ofBits_zero_f32]
  unfold hidden
  rfl

/-- The key step over arbitrary arrays and arbitrary index embeddings: when row p of the row-blocked windows is row
    I 0 of their arrays, the whole windows are their arrays, and column q of the output block is column I 1, the body's
    entry (p, q) is the whole-array function at I. -/
theorem key_abs (A Hs : Mat 50000 128) (D : Mat 50000 1) (b g be mu var : Mat 1 128) (W : Mat 128 128)
    (E0 E1 : S5000x128.Idx → S50000x128.Idx) (E2 : S5000x1.Idx → S50000x1.Idx)
    (E3 E4 E5 E6 E7 : S1x128.Idx → S1x128.Idx) (E8 : S128x128.Idx → S128x128.Idx)
    (I : S50000x128.Idx) (p : Fin 5000) (q : Fin 128)
    (h0 : ∀ u : Fin 128, E0 (ix2 p u) = ix2 (I 0) u) (h1 : ∀ u : Fin 128, E1 (ix2 p u) = ix2 (I 0) u)
    (h2 : E2 (ix2 p (0 : Fin 1)) = ix2 (I 0) (0 : Fin 1))
    (e3 : ∀ y, E3 y = y) (e4 : ∀ y, E4 y = y) (e5 : ∀ y, E5 y = y) (e6 : ∀ y, E6 y = y) (e7 : ∀ y, E7 y = y)
    (e8 : ∀ y, E8 y = y) (hq : I 1 = q) :
    (∑ k : Fin 128, hidden (fun y => A (E0 y)) (fun y => Hs (E1 y)) (fun y => D (E2 y)) (fun y => b (E3 y))
        (fun y => g (E4 y)) (fun y => be (E5 y)) (fun y => mu (E6 y)) (fun y => var (E7 y)) (ix2 p k)
          * W (E8 (ix2 k q))) * D (E2 (ix2 p (0 : Fin 1)))
      = G A Hs D b g be mu var W I := by
  rw [h2]
  unfold G dense
  rw [hq]
  refine congrArg (· * D (ix2 (I 0) (0 : Fin 1))) (Finset.sum_congr rfl fun k _ => ?_)
  rw [e8, hidden_rows (fun y => A (E0 y)) (fun y => Hs (E1 y)) (fun y => D (E2 y)) (fun y => b (E3 y)) (fun y => g (E4 y))
    (fun y => be (E5 y)) (fun y => mu (E6 y)) (fun y => var (E7 y)) A Hs D b g be mu var p (I 0)
    (fun u => congrArg A (h0 u)) (fun u => congrArg Hs (h1 u)) (congrArg D h2)
    (fun _ => congrArg b (e3 _)) (fun _ => congrArg g (e4 _)) (fun _ => congrArg be (e5 _)) (fun _ => congrArg mu (e6 _))
    (fun _ => congrArg var (e7 _)) k]

section
variable (V : (c : Dev nD) → (b : Ref sig .tc) → Buf (Elt Ideal) ((c : Thread nD τ).loc b))

/-- The printed index maps over the grid: the row-blocked windows move with the output, the others stay. -/
theorem idx_facts : ∀ t : Fin cfg2.N,
    (win2_0.index t (0 : Fin 2) = win2_9.index t (0 : Fin 2) ∧ win2_0.index t (1 : Fin 2) = 0)
    ∧ (win2_1.index t (0 : Fin 2) = win2_9.index t (0 : Fin 2) ∧ win2_1.index t (1 : Fin 2) = 0)
    ∧ (win2_2.index t (0 : Fin 2) = win2_9.index t (0 : Fin 2) ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (1 : Fin 2) = 0 ∧ win2_9.index t (0 : Fin 2) ≤ 9) :=
  (by decide +kernel : ∀ t : Fin grid2.N, _)

/-- Every block of rows is some point's. -/
theorem idx_onto : ∀ (q0 : Fin 10), ∃ t : Fin cfg2.N, win2_9.index t = ![q0.val, 0] :=
  (by decide +kernel : ∀ (q0 : Fin 10), ∃ t : Fin grid2.N, win2_9.index t = ![q0.val, 0])

/-- Row p of window 0's block is the output block's row of the arrays. -/
theorem emb0 (t : Fin cfg2.N) (p : Fin 5000) (q : Fin 128) (u : Fin 128) :
    ((cfg2.win 0).blk t).view.emb (ix2 p u) = ix2 ((((cfg2.win 9).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_0.index t (0 : Fin 2) * 5000 + 1 * p.val = win2_9.index t (0 : Fin 2) * 5000 + 1 * p.val; omega
  | ⟨1, _⟩ => show win2_0.index t (1 : Fin 2) * 128 + 1 * u.val = u.val; omega

/-- Row p of window 1's block is the output block's row of the arrays. -/
theorem emb1 (t : Fin cfg2.N) (p : Fin 5000) (q : Fin 128) (u : Fin 128) :
    ((cfg2.win 1).blk t).view.emb (ix2 p u) = ix2 ((((cfg2.win 9).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_1.index t (0 : Fin 2) * 5000 + 1 * p.val = win2_9.index t (0 : Fin 2) * 5000 + 1 * p.val; omega
  | ⟨1, _⟩ => show win2_1.index t (1 : Fin 2) * 128 + 1 * u.val = u.val; omega

/-- Row p of the weight column's block is the output block's row of the array. -/
theorem emb2 (t : Fin cfg2.N) (p : Fin 5000) (q : Fin 128) :
    ((cfg2.win 2).blk t).view.emb (ix2 p (0 : Fin 1)) = ix2 ((((cfg2.win 9).blk t).view.emb (ix2 p q)) 0) (0 : Fin 1) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_2.index t (0 : Fin 2) * 5000 + 1 * p.val = win2_9.index t (0 : Fin 2) * 5000 + 1 * p.val; omega
  | ⟨1, _⟩ => show win2_2.index t (1 : Fin 2) * 1 + 1 * 0 = 0; omega

/-- Window 3's block is its whole array. -/
theorem emb3 (t : Fin cfg2.N) (y : S1x128.Idx) : ((cfg2.win 3).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole array. -/
theorem emb4 (t : Fin cfg2.N) (y : S1x128.Idx) : ((cfg2.win 4).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array. -/
theorem emb5 (t : Fin cfg2.N) (y : S1x128.Idx) : ((cfg2.win 5).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block is its whole array. -/
theorem emb6 (t : Fin cfg2.N) (y : S1x128.Idx) : ((cfg2.win 6).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block is its whole array. -/
theorem emb7 (t : Fin cfg2.N) (y : S1x128.Idx) : ((cfg2.win 7).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block is its whole array. -/
theorem emb8 (t : Fin cfg2.N) (y : S128x128.Idx) : ((cfg2.win 8).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  funext a; apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- Column q of the output block is column q of the array. -/
theorem emb9_col (t : Fin cfg2.N) (p : Fin 5000) (q : Fin 128) : (((cfg2.win 9).blk t).view.emb (ix2 p q)) 1 = q := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, b9, -⟩ := idx_facts t
  apply Fin.ext
  show win2_9.index t (1 : Fin 2) * 128 + 1 * q.val = q.val; omega

/-- What point t writes back is block t of the whole-array function of the arrays the region finds. -/
theorem flushed_eq (c : Dev nD) (t : Fin cfg2.N) :
    (dat2 V c).flushed 9 t = ((cfg2.win 9).blk t).view.read (Elt Ideal)
      (G (V c main_v38) (V c main_v28) (V c main_v11) (V c main_v39) (V c main_v40)
      (V c main_v41) (V c main_v42) (V c main_v43) (V c main_arg6)) := by
  show (cfg2.win 9).cut (grid2.coords t) ((dat2 V c).after 9 t) = _
  rw [after2_9]
  funext j
  obtain ⟨p, q, rfl⟩ : ∃ (p : Fin 5000) (q : Fin 128), j = ix2 p q := ⟨j 0, j 1, eq_ix2 j⟩
  show out2_9 (iblk2 V c 0 t) (iblk2 V c 1 t) (iblk2 V c 2 t) (iblk2 V c 3 t) (iblk2 V c 4 t)
      (iblk2 V c 5 t) (iblk2 V c 6 t) (iblk2 V c 7 t) (iblk2 V c 8 t) (ix2 p q)
    = G (V c main_v38) (V c main_v28) (V c main_v11) (V c main_v39) (V c main_v40)
      (V c main_v41) (V c main_v42) (V c main_v43) (V c main_arg6) (((cfg2.win 9).blk t).view.emb (ix2 p q))
  refine (out_apply _ _ _ _ _ _ _ _ _ p q).trans ?_
  exact key_abs (V c main_v38) (V c main_v28) (V c main_v11) (V c main_v39) (V c main_v40)
    (V c main_v41) (V c main_v42) (V c main_v43) (V c main_arg6) ((cfg2.win 0).blk t).view.emb ((cfg2.win 1).blk t).view.emb
    ((cfg2.win 2).blk t).view.emb ((cfg2.win 3).blk t).view.emb ((cfg2.win 4).blk t).view.emb ((cfg2.win 5).blk t).view.emb
    ((cfg2.win 6).blk t).view.emb ((cfg2.win 7).blk t).view.emb ((cfg2.win 8).blk t).view.emb
    (((cfg2.win 9).blk t).view.emb (ix2 p q)) p q (emb0 t p q) (emb1 t p q) (emb2 t p q) (emb3 t) (emb4 t) (emb5 t) (emb6 t)
    (emb7 t) (emb8 t) (emb9_col t p q)

/-- An index is in point t's block iff each coordinate is in the block's range. -/
theorem mem_blk (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v44).slice (win2_9.rect t)).set ↔ _
  rw [View.set_slice_whole, Rect.mem_set_unit]
  exact Iff.rfl

/-- The blocks of rows cover the array. -/
theorem cover (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ := idx_onto ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The output array after the region: the whole-array function of the arrays the region finds. -/
theorem final (c : Dev nD) :
    (dat2 V c).arrAt 9 cfg2.N = G (V c main_v38) (V c main_v28) (V c main_v11) (V c main_v39) (V c main_v40)
      (V c main_v41) (V c main_v42) (V c main_v43) (V c main_arg6) :=
  (dat2 V c).arrAt_eq_of_cover 9 (G (V c main_v38) (V c main_v28) (V c main_v11) (V c main_v39) (V c main_v40)
      (V c main_v41) (V c main_v42) (V c main_v43) (V c main_arg6)) (fun t _ => flushed_eq V c t) cover

end

end Cert.Gcn.Region2

end
-- ==== Proof.Region3.lean ====
/-
  The last pallas_call, as one function of the arrays it finds.

  The call tiles the 50000 rows in 10 blocks of 5000. At a block it forms the hidden state of the block's rows (the
  aggregate plus the rows' own scaled features, scaled by the rows' weights, plus the bias, normalised with the given
  statistics and rectified), multiplies it with the whole head matrix and adds the head's one-row bias. Row r of a
  block at point t is row 5000·t + r of the arrays, so the output array ends, entry by entry, at
  (Σ_k hidden(r,k)·W(k,q)) + bh(0,q).
-/
import proofs.«103472_j87651692577500_2_alg».proof.Proof.Gen.KernelIdeal.Frame
import proofs.«103472_j87651692577500_2_alg».proof.Proof.Hidden
import proofs.«103472_j87651692577500_2_alg».proof.Proof.LibMatmulPlain
import proofs.«103472_j87651692577500_2_alg».proof.Proof.LibKeepdims
import Idealize.ShloMosaic.Lib.Pipeline.Value
import Idealize.ShloMosaic.Lib.ValueLayout

set_option maxRecDepth 16384

noncomputable section

namespace Cert.Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem hz : (![0, 0] : Fin 2 → Nat) = fun _ => 0 := funext fun a => by fin_cases a <;> rfl

/-- The whole-array function: the hidden state times the head's weights, plus the head's one-row bias. -/
def G (A Hs : Mat 50000 128) (D : Mat 50000 1) (b g be mu var : Mat 1 128) (W : Mat 128 64) (bh : Mat 1 64) : Mat 50000 64 :=
  fun i => dense (hidden A Hs D b g be mu var) W i + bh (ix2 (0 : Fin 1) (i 1))

/-- The inverse square root of a vector, read at an index. -/
theorem rsqrt_apply {s : Shape} {φ : FTy} (a : FVec Ideal s φ) (i : s.Idx) : rsqrt a i = Ideal.rsqrt (a i) := rfl

/-- The body's result at an entry of the block. -/
theorem out_apply (x0 x1 : Vec Ideal S5000x128 .f32) (x2 : Vec Ideal S5000x1 .f32) (x3 x4 x5 x6 x7 : Vec Ideal S1x128 .f32)
    (x8 : Vec Ideal S128x64 .f32) (x9 : Vec Ideal S1x64 .f32) (p : Fin 5000) (q : Fin 64) :
    out3_10 (F := Ideal) x0 x1 x2 x3 x4 x5 x6 x7 x8 x9 (ix2 p q)
      = (∑ k : Fin 128, hidden x0 x1 x2 x3 x4 x5 x6 x7 (ix2 p k) * x8 (ix2 k q)) + x9 (ix2 (0 : Fin 1) q) := by
  unfold out3_10
  rw [View.canon_unit_zero hz]
  simp only [View.ld_unit_zero (S := S5000x128) hz, View.ld_unit_zero (S := S5000x1) hz, View.ld_unit_zero (S := S1x128) hz,
    View.ld_unit_zero (S := S128x64) hz, View.ld_unit_zero (S := S1x64) hz]
  unfold k3_pay1 k3_pay2
  have hd : dot_S5000x128_S128x64_S5000x64_1_0_0_1_n_n = DotDims.plain 5000 128 64 := rfl
  rw [hd]
  simp only [shapeCast_self]
  rw [addf_apply, MatmulPlain.matmul_zero_apply, broadcastTo_1b_ab_apply]
  refine congrArg (· + x9 (ix2 (0 : Fin 1) q)) (Finset.sum_congr rfl fun k _ => ?_)
  rw [truncf_apply, truncf_apply, maximumf_apply, addf_apply, mulf_apply, mulf_apply, subf_apply, addf_apply, mulf_apply,
    addf_apply]
  simp only [Keepdims.broadcastTo_a1_ab_apply, broadcastTo_1b_ab_apply, rsqrt_apply, addf_apply, broadcast_apply]
  rw [show FloatOps.ofBits (F := Ideal) .f32 0#32 = 0 from Ideal.ofBits_zero_f32]
  rfl

/-- The key step over arbitrary arrays and arbitrary index embeddings: when row p of the row-blocked windows is row
    I 0 of their arrays, the whole windows are their arrays, and column q of the output block is column I 1, the body's
    entry (p, q) is the whole-array function at I. -/
theorem key_abs (A Hs : Mat 50000 128) (D : Mat 50000 1) (b g be mu var : Mat 1 128) (W : Mat 128 64) (bh : Mat 1 64)
    (E0 E1 : S5000x128.Idx → S50000x128.Idx) (E2 : S5000x1.Idx → S50000x1.Idx)
    (E3 E4 E5 E6 E7 : S1x128.Idx → S1x128.Idx) (E8 : S128x64.Idx → S128x64.Idx) (E9 : S1x64.Idx → S1x64.Idx)
    (I : S50000x64.Idx) (p : Fin 5000) (q : Fin 64)
    (h0 : ∀ u : Fin 128, E0 (ix2 p u) = ix2 (I 0) u) (h1 : ∀ u : Fin 128, E1 (ix2 p u) = ix2 (I 0) u)
    (h2 : E2 (ix2 p (0 : Fin 1)) = ix2 (I 0) (0 : Fin 1))
    (e3 : ∀ y, E3 y = y) (e4 : ∀ y, E4 y = y) (e5 : ∀ y, E5 y = y) (e6 : ∀ y, E6 y = y) (e7 : ∀ y, E7 y = y)
    (e8 : ∀ y, E8 y = y) (e9 : ∀ y, E9 y = y) (hq : I 1 = q) :
    (∑ k : Fin 128, hidden (fun y => A (E0 y)) (fun y => Hs (E1 y)) (fun y => D (E2 y)) (fun y => b (E3 y))
        (fun y => g (E4 y)) (fun y => be (E5 y)) (fun y => mu (E6 y)) (fun y => var (E7 y)) (ix2 p k)
          * W (E8 (ix2 k q))) + bh (E9 (ix2 (0 : Fin 1) q))
      = G A Hs D b g be mu var W bh I := by
  rw [e9]
  unfold G dense
  rw [hq]
  refine congrArg (· + bh (ix2 (0 : Fin 1) q)) (Finset.sum_congr rfl fun k _ => ?_)
  rw [e8, hidden_rows (fun y => A (E0 y)) (fun y => Hs (E1 y)) (fun y => D (E2 y)) (fun y => b (E3 y)) (fun y => g (E4 y))
    (fun y => be (E5 y)) (fun y => mu (E6 y)) (fun y => var (E7 y)) A Hs D b g be mu var p (I 0)
    (fun u => congrArg A (h0 u)) (fun u => congrArg Hs (h1 u)) (congrArg D h2)
    (fun _ => congrArg b (e3 _)) (fun _ => congrArg g (e4 _)) (fun _ => congrArg be (e5 _)) (fun _ => congrArg mu (e6 _))
    (fun _ => congrArg var (e7 _)) k]

section
variable (V : (c : Dev nD) → (b : Ref sig .tc) → Buf (Elt Ideal) ((c : Thread nD τ).loc b))

/-- The printed index maps over the grid: the row-blocked windows move with the output, the others stay. -/
theorem idx_facts : ∀ t : Fin cfg3.N,
    (win3_0.index t (0 : Fin 2) = win3_10.index t (0 : Fin 2) ∧ win3_0.index t (1 : Fin 2) = 0)
    ∧ (win3_1.index t (0 : Fin 2) = win3_10.index t (0 : Fin 2) ∧ win3_1.index t (1 : Fin 2) = 0)
    ∧ (win3_2.index t (0 : Fin 2) = win3_10.index t (0 : Fin 2) ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (1 : Fin 2) = 0 ∧ win3_10.index t (0 : Fin 2) ≤ 9) :=
  (by decide +kernel : ∀ t : Fin grid3.N, _)

/-- Every block of rows is some point's. -/
theorem idx_onto : ∀ (q0 : Fin 10), ∃ t : Fin cfg3.N, win3_10.index t = ![q0.val, 0] :=
  (by decide +kernel : ∀ (q0 : Fin 10), ∃ t : Fin grid3.N, win3_10.index t = ![q0.val, 0])

/-- Row p of window 0's block is the output block's row of the arrays. -/
theorem emb0 (t : Fin cfg3.N) (p : Fin 5000) (q : Fin 64) (u : Fin 128) :
    ((cfg3.win 0).blk t).view.emb (ix2 p u) = ix2 ((((cfg3.win 10).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_0.index t (0 : Fin 2) * 5000 + 1 * p.val = win3_10.index t (0 : Fin 2) * 5000 + 1 * p.val; omega
  | ⟨1, _⟩ => show win3_0.index t (1 : Fin 2) * 128 + 1 * u.val = u.val; omega

/-- Row p of window 1's block is the output block's row of the arrays. -/
theorem emb1 (t : Fin cfg3.N) (p : Fin 5000) (q : Fin 64) (u : Fin 128) :
    ((cfg3.win 1).blk t).view.emb (ix2 p u) = ix2 ((((cfg3.win 10).blk t).view.emb (ix2 p q)) 0) u := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_1.index t (0 : Fin 2) * 5000 + 1 * p.val = win3_10.index t (0 : Fin 2) * 5000 + 1 * p.val; omega
  | ⟨1, _⟩ => show win3_1.index t (1 : Fin 2) * 128 + 1 * u.val = u.val; omega

/-- Row p of the weight column's block is the output block's row of the array. -/
theorem emb2 (t : Fin cfg3.N) (p : Fin 5000) (q : Fin 64) :
    ((cfg3.win 2).blk t).view.emb (ix2 p (0 : Fin 1)) = ix2 ((((cfg3.win 10).blk t).view.emb (ix2 p q)) 0) (0 : Fin 1) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_2.index t (0 : Fin 2) * 5000 + 1 * p.val = win3_10.index t (0 : Fin 2) * 5000 + 1 * p.val; omega
  | ⟨1, _⟩ => show win3_2.index t (1 : Fin 2) * 1 + 1 * 0 = 0; omega

/-- Window 3's block is its whole array. -/
theorem emb3 (t : Fin cfg3.N) (y : S1x128.Idx) : ((cfg3.win 3).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array. -/
theorem emb4 (t : Fin cfg3.N) (y : S1x128.Idx) : ((cfg3.win 4).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block is its whole array. -/
theorem emb5 (t : Fin cfg3.N) (y : S1x128.Idx) : ((cfg3.win 5).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block is its whole array. -/
theorem emb6 (t : Fin cfg3.N) (y : S1x128.Idx) : ((cfg3.win 6).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- Window 7's block is its whole array. -/
theorem emb7 (t : Fin cfg3.N) (y : S1x128.Idx) : ((cfg3.win 7).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8's block is its whole array. -/
theorem emb8 (t : Fin cfg3.N) (y : S128x64.Idx) : ((cfg3.win 8).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_8.index t (0 : Fin 2) * 128 + 1 * (y 0).val = (y 0).val; omega
  | ⟨1, _⟩ => show win3_8.index t (1 : Fin 2) * 64 + 1 * (y 1).val = (y 1).val; omega

/-- Window 9's block is its whole array. -/
theorem emb9 (t : Fin cfg3.N) (y : S1x64.Idx) : ((cfg3.win 9).blk t).view.emb y = y := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  funext a; apply Fin.ext
  match a with
  | ⟨0, _⟩ => show win3_9.index t (0 : Fin 2) * 1 + 1 * (y 0).val = (y 0).val; omega
  | ⟨1, _⟩ => show win3_9.index t (1 : Fin 2) * 64 + 1 * (y 1).val = (y 1).val; omega

/-- Column q of the output block is column q of the array. -/
theorem emb10_col (t : Fin cfg3.N) (p : Fin 5000) (q : Fin 64) : (((cfg3.win 10).blk t).view.emb (ix2 p q)) 1 = q := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, b10, -⟩ := idx_facts t
  apply Fin.ext
  show win3_10.index t (1 : Fin 2) * 64 + 1 * q.val = q.val; omega

/-- What point t writes back is block t of the whole-array function of the arrays the region finds. -/
theorem flushed_eq (c : Dev nD) (t : Fin cfg3.N) :
    (dat3 V c).flushed 10 t = ((cfg3.win 10).blk t).view.read (Elt Ideal)
      (G (V c main_v54) (V c main_v44) (V c main_v11) (V c main_v55) (V c main_v56) (V c main_v57) (V c main_v58)
        (V c main_v59) (V c main_arg20) (V c main_v60)) := by
  show (cfg3.win 10).cut (grid3.coords t) ((dat3 V c).after 10 t) = _
  rw [after3_10]
  funext j
  obtain ⟨p, q, rfl⟩ : ∃ (p : Fin 5000) (q : Fin 64), j = ix2 p q := ⟨j 0, j 1, eq_ix2 j⟩
  show out3_10 (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t) (ix2 p q)
    = G (V c main_v54) (V c main_v44) (V c main_v11) (V c main_v55) (V c main_v56) (V c main_v57) (V c main_v58)
        (V c main_v59) (V c main_arg20) (V c main_v60) (((cfg3.win 10).blk t).view.emb (ix2 p q))
  refine (out_apply _ _ _ _ _ _ _ _ _ _ p q).trans ?_
  exact key_abs (V c main_v54) (V c main_v44) (V c main_v11) (V c main_v55) (V c main_v56) (V c main_v57) (V c main_v58)
    (V c main_v59) (V c main_arg20) (V c main_v60) ((cfg3.win 0).blk t).view.emb ((cfg3.win 1).blk t).view.emb
    ((cfg3.win 2).blk t).view.emb ((cfg3.win 3).blk t).view.emb ((cfg3.win 4).blk t).view.emb ((cfg3.win 5).blk t).view.emb
    ((cfg3.win 6).blk t).view.emb ((cfg3.win 7).blk t).view.emb ((cfg3.win 8).blk t).view.emb ((cfg3.win 9).blk t).view.emb
    (((cfg3.win 10).blk t).view.emb (ix2 p q)) p q (emb0 t p q) (emb1 t p q) (emb2 t p q) (emb3 t) (emb4 t) (emb5 t) (emb6 t)
    (emb7 t) (emb8 t) (emb9 t) (emb10_col t p q)

/-- An index is in point t's block iff each coordinate is in the block's range. -/
theorem mem_blk (t : Fin cfg3.N) (i : S50000x64.Idx) :
    i ∈ ((cfg3.win 10).blk t).view.set ↔ ∀ a : Fin 2, win3_10.index t a * S5000x64.size a ≤ (i a).val ∧ (i a).val < win3_10.index t a * S5000x64.size a + S5000x64.size a := by
  show i ∈ ((View.whole main_v61).slice (win3_10.rect t)).set ↔ _
  rw [View.set_slice_whole, Rect.mem_set_unit]
  exact Iff.rfl

/-- The blocks of rows cover the array. -/
theorem cover (i : S50000x64.Idx) : ∃ t : Fin cfg3.N, (cfg3.win 10).flush t = true ∧ i ∈ ((cfg3.win 10).blk t).view.set := by
  have hi0 : (i 0).val < 50000 := (i 0).isLt
  have hi1 : (i 1).val < 64 := (i 1).isLt
  obtain ⟨t, ht⟩ := idx_onto ⟨(i 0).val / 5000, by omega⟩
  have q0 : win3_10.index t (0 : Fin 2) = (i 0).val / 5000 := congrFun ht 0
  have q1 : win3_10.index t (1 : Fin 2) = 0 := congrFun ht 1
  refine ⟨t, flush3_10 t, ?_⟩
  rw [mem_blk]
  intro a
  match a with
  | ⟨0, _⟩ => show win3_10.index t (0 : Fin 2) * 5000 ≤ (i 0).val ∧ (i 0).val < win3_10.index t (0 : Fin 2) * 5000 + 5000; omega
  | ⟨1, _⟩ => show win3_10.index t (1 : Fin 2) * 64 ≤ (i 1).val ∧ (i 1).val < win3_10.index t (1 : Fin 2) * 64 + 64; omega

/-- The output array after the region: the whole-array function of the arrays the region finds. -/
theorem final (c : Dev nD) :
    (dat3 V c).arrAt 10 cfg3.N = G (V c main_v54) (V c main_v44) (V c main_v11) (V c main_v55) (V c main_v56) (V c main_v57)
      (V c main_v58) (V c main_v59) (V c main_arg20) (V c main_v60) :=
  (dat3 V c).arrAt_eq_of_cover 10 (G (V c main_v54) (V c main_v44) (V c main_v11) (V c main_v55) (V c main_v56) (V c main_v57)
    (V c main_v58) (V c main_v59) (V c main_arg20) (V c main_v60)) (fun t _ => flushed_eq V c t) cover

end

end Cert.Gcn.Region3

end
-- ==== Proof.Glue.lean ====
/-
  The host operations between the pallas_calls, read as functions of the buffers they find.

  Before the first call the host cuts the edge array into its source and destination rows, counts each node's
  incoming edges, adds one and takes the inverse square root: the node weights, kept as a column. Between calls it
  gathers the previous call's rows at the source nodes and sums them into the destination nodes (the aggregate), and
  recasts the layer's parameter vectors as one-row arrays. A buffer none of a stretch's operations writes keeps its
  contents.
-/
import proofs.«103472_j87651692577500_2_alg».proof.Proof.Gen.KernelIdeal.Frame
import Idealize.ShloMosaic.Lib.StableHlo.Run
import Idealize.ShloMosaic.PureOps.Ideal

set_option maxRecDepth 16384

noncomputable section

namespace Cert.Gcn.Glue

open Idealize.ShloMosaic Idealize.ShloMosaic.TcCoe Idealize.ShloMosaic.StableHlo Idealize.SL.Sem
open Cert.KernelIdeal Cert.KernelIdeal.Gen

/-- The source row of the edge array. -/
def srcOf (ei : (⟨S2x800000, .i32⟩ : BufTy).Contents (Elt Ideal)) : (⟨S800000, .i32⟩ : BufTy).Contents (Elt Ideal) :=
  fun i => shapeCast S800000 (extractStridedSlice S1x800000 ![0, 0] ei slices_S2x800000_S1x800000_0_0) shapeCasts_S1x800000_S800000 i

/-- The destination row of the edge array. -/
def dstOf (ei : (⟨S2x800000, .i32⟩ : BufTy).Contents (Elt Ideal)) : (⟨S800000, .i32⟩ : BufTy).Contents (Elt Ideal) :=
  fun i => shapeCast S800000 (extractStridedSlice S1x800000 ![1, 0] ei slices_S2x800000_S1x800000_1_0) shapeCasts_S1x800000_S800000 i

/-- The node weights as a column: the inverse square root of one plus the number of edges summed into a node. -/
def dinvCol (ei : (⟨S2x800000, .i32⟩ : BufTy).Contents (Elt Ideal)) : (⟨S50000x1, .f32⟩ : BufTy).Contents (Elt Ideal) :=
  fun i => shapeCast S50000x1 (Host.rsqrt (F := Ideal) (addf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dstOf ei))
      (broadcastInDim S800000 ![] bcast_S_S800000 (constant (F := Ideal) S_ .f32 0x3F800000#32)))
    (broadcastInDim S50000 ![] bcast_S_S50000 (constant (F := Ideal) S_ .f32 0x3F800000#32)))) shapeCasts_S50000_S50000x1 i

/-- A row of node numbers as a gather's start indices: a negative number counts from the end. -/
def normCol (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The aggregate: the rows of `hws` at the source nodes, summed into the destination nodes from zero. -/
def agg (hws : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 hws (normCol src))

/-- A parameter vector as a one-row array. -/
def row (x : (⟨S128, .f32⟩ : BufTy).Contents (Elt Ideal)) : (⟨S1x128, .f32⟩ : BufTy).Contents (Elt Ideal) :=
  fun i => shapeCast S1x128 x shapeCasts_S128_S1x128 i

/-- The head's bias vector as a one-row array. -/
def row64 (x : (⟨S64, .f32⟩ : BufTy).Contents (Elt Ideal)) : (⟨S1x64, .f32⟩ : BufTy).Contents (Elt Ideal) :=
  fun i => shapeCast S1x64 x shapeCasts_S64_S1x64 i

variable (W : Valuation τ sig (Elt Ideal))

/-! ## The stretch before the first call -/

theorem h0_v1 : after hostOps0 W (Proc.devRef .tc main_v1) = srcOf (W (Proc.devRef .tc main_arg1)) := by
  after_results; rfl
theorem h0_v3 : after hostOps0 W (Proc.devRef .tc main_v3) = dstOf (W (Proc.devRef .tc main_arg1)) := by
  after_results; rfl
theorem h0_v11 : after hostOps0 W (Proc.devRef .tc main_v11) = dinvCol (W (Proc.devRef .tc main_arg1)) := by
  after_results; rfl

/-- The buffers the stretch writes. -/
def wr0 : List (Ref sig .tc) := [main_v0, main_v1, main_v2, main_v3, main_cst, main_v4, main_cst_0, main_v5, main_v6, main_v7, main_cst_1, main_v8, main_v9, main_v10, main_v11]
theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
theorem h0_keep (r : Ref sig .tc) (hr : r ∉ wr0) : after hostOps0 W (Proc.devRef .tc r) = W (Proc.devRef .tc r) :=
  after_of_writes_sub hostOps0 W wr0_sub hr

/-! ## The stretch before the second call -/

set_option maxHeartbeats 1000000 in
theorem h1_agg : after hostOps1 W (Proc.devRef .tc main_v22)
    = agg (W (Proc.devRef .tc main_v12)) (W (Proc.devRef .tc main_v1)) (W (Proc.devRef .tc main_v3)) := by
  after_results
  unfold agg normCol
  rfl
theorem h1_v23 : after hostOps1 W (Proc.devRef .tc main_v23) = row (W (Proc.devRef .tc main_arg3)) := by after_results; rfl
theorem h1_v24 : after hostOps1 W (Proc.devRef .tc main_v24) = row (W (Proc.devRef .tc main_arg8)) := by after_results; rfl
theorem h1_v25 : after hostOps1 W (Proc.devRef .tc main_v25) = row (W (Proc.devRef .tc main_arg9)) := by after_results; rfl
theorem h1_v26 : after hostOps1 W (Proc.devRef .tc main_v26) = row (W (Proc.devRef .tc main_arg10)) := by after_results; rfl
theorem h1_v27 : after hostOps1 W (Proc.devRef .tc main_v27) = row (W (Proc.devRef .tc main_arg11)) := by after_results; rfl

def wr1 : List (Ref sig .tc) := [main_c, main_v13, main_v14, main_c_2, main_v15, main_v16, main_v17, main_v18, main_v19, main_cst_3, main_v20, main_v21, main_v22, main_v23, main_v24, main_v25, main_v26, main_v27]
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
theorem h1_keep (r : Ref sig .tc) (hr : r ∉ wr1) : after hostOps1 W (Proc.devRef .tc r) = W (Proc.devRef .tc r) :=
  after_of_writes_sub hostOps1 W wr1_sub hr

/-! ## The stretch before the third call -/

set_option maxHeartbeats 1000000 in
theorem h2_agg : after hostOps2 W (Proc.devRef .tc main_v38)
    = agg (W (Proc.devRef .tc main_v28)) (W (Proc.devRef .tc main_v1)) (W (Proc.devRef .tc main_v3)) := by
  after_results
  unfold agg normCol
  rfl
theorem h2_v39 : after hostOps2 W (Proc.devRef .tc main_v39) = row (W (Proc.devRef .tc main_arg5)) := by after_results; rfl
theorem h2_v40 : after hostOps2 W (Proc.devRef .tc main_v40) = row (W (Proc.devRef .tc main_arg12)) := by after_results; rfl
theorem h2_v41 : after hostOps2 W (Proc.devRef .tc main_v41) = row (W (Proc.devRef .tc main_arg13)) := by after_results; rfl
theorem h2_v42 : after hostOps2 W (Proc.devRef .tc main_v42) = row (W (Proc.devRef .tc main_arg14)) := by after_results; rfl
theorem h2_v43 : after hostOps2 W (Proc.devRef .tc main_v43) = row (W (Proc.devRef .tc main_arg15)) := by after_results; rfl

def wr2 : List (Ref sig .tc) := [main_c_4, main_v29, main_v30, main_c_5, main_v31, main_v32, main_v33, main_v34, main_v35, main_cst_6, main_v36, main_v37, main_v38, main_v39, main_v40, main_v41, main_v42, main_v43]
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
theorem h2_keep (r : Ref sig .tc) (hr : r ∉ wr2) : after hostOps2 W (Proc.devRef .tc r) = W (Proc.devRef .tc r) :=
  after_of_writes_sub hostOps2 W wr2_sub hr

/-! ## The stretch before the last call -/

set_option maxHeartbeats 1000000 in
theorem h3_agg : after hostOps3 W (Proc.devRef .tc main_v54)
    = agg (W (Proc.devRef .tc main_v44)) (W (Proc.devRef .tc main_v1)) (W (Proc.devRef .tc main_v3)) := by
  after_results
  unfold agg normCol
  rfl
theorem h3_v55 : after hostOps3 W (Proc.devRef .tc main_v55) = row (W (Proc.devRef .tc main_arg7)) := by after_results; rfl
theorem h3_v56 : after hostOps3 W (Proc.devRef .tc main_v56) = row (W (Proc.devRef .tc main_arg16)) := by after_results; rfl
theorem h3_v57 : after hostOps3 W (Proc.devRef .tc main_v57) = row (W (Proc.devRef .tc main_arg17)) := by after_results; rfl
theorem h3_v58 : after hostOps3 W (Proc.devRef .tc main_v58) = row (W (Proc.devRef .tc main_arg18)) := by after_results; rfl
theorem h3_v59 : after hostOps3 W (Proc.devRef .tc main_v59) = row (W (Proc.devRef .tc main_arg19)) := by after_results; rfl
theorem h3_v60 : after hostOps3 W (Proc.devRef .tc main_v60) = row64 (W (Proc.devRef .tc main_arg21)) := by after_results; rfl

def wr3 : List (Ref sig .tc) := [main_c_7, main_v45, main_v46, main_c_8, main_v47, main_v48, main_v49, main_v50, main_v51, main_cst_9, main_v52, main_v53, main_v54, main_v55, main_v56, main_v57, main_v58, main_v59, main_v60]
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
theorem h3_keep (r : Ref sig .tc) (hr : r ∉ wr3) : after hostOps3 W (Proc.devRef .tc r) = W (Proc.devRef .tc r) :=
  after_of_writes_sub hostOps3 W wr3_sub hr

end Cert.Gcn.Glue

end
-- ==== Proof.KerSide.lean ====
/-
  The result buffer of the idealized kernel's run, as the four pallas_calls' whole-array functions composed with the
  host's aggregates: the fold of @main's stretches and calls walked back from the last boundary to the launch memory.
  A buffer is followed backwards through each stretch that does not write it and each call that does not flush into
  it; the calls' outputs are their closed forms of the arrays they found.
-/
import proofs.«103472_j87651692577500_2_alg».proof.Proof.KRun
import proofs.«103472_j87651692577500_2_alg».proof.Proof.Region0
import proofs.«103472_j87651692577500_2_alg».proof.Proof.Region1
import proofs.«103472_j87651692577500_2_alg».proof.Proof.Region2
import proofs.«103472_j87651692577500_2_alg».proof.Proof.Region3
import proofs.«103472_j87651692577500_2_alg».proof.Proof.Glue

set_option maxRecDepth 16384

noncomputable section

namespace Cert.Gcn.KerSide

open Idealize.ShloMosaic Idealize.ShloMosaic.TcCoe Idealize.ShloMosaic.StableHlo Idealize.SL.Sem
open Idealize.ShloMosaic.Pipeline (Dat Cfg Window)
open Cert.KernelIdeal Cert.KernelIdeal.Gen Cert.Gcn Cert.Gcn.Glue

variable (m : (ℓ : Loc nD τ sig) → Buf (Elt Ideal) ℓ) (ρ : Dev nD → PrngReg) (c : Dev nD)

/-! ## A buffer nothing writes, followed back to the launch memory -/

theorem a1 (b : Ref sig .tc) (h0 : b ∉ wr0) : W1 m ρ c (Proc.devRef .tc b) = m ((c : Thread nD τ).loc b) :=
  h0_keep (W0 m ρ c) b h0
theorem a2 (b : Ref sig .tc) (h0 : b ∉ wr0) (n0 : ∀ w, Pipeline.arrRef spec0 w ≠ b) :
    W2 m ρ c (Proc.devRef .tc b) = m ((c : Thread nD τ).loc b) :=
  (W2_of_ne m ρ c b n0).trans (a1 m ρ c b h0)
theorem a3 (b : Ref sig .tc) (h0 : b ∉ wr0) (n0 : ∀ w, Pipeline.arrRef spec0 w ≠ b) (h1 : b ∉ wr1) :
    W3 m ρ c (Proc.devRef .tc b) = m ((c : Thread nD τ).loc b) :=
  (h1_keep (W2 m ρ c) b h1).trans (a2 m ρ c b h0 n0)
theorem a4 (b : Ref sig .tc) (h0 : b ∉ wr0) (n0 : ∀ w, Pipeline.arrRef spec0 w ≠ b) (h1 : b ∉ wr1)
    (n1 : ∀ w, Pipeline.arrRef spec1 w ≠ b) : W4 m ρ c (Proc.devRef .tc b) = m ((c : Thread nD τ).loc b) :=
  (W4_of_ne m ρ c b n1).trans (a3 m ρ c b h0 n0 h1)
theorem a5 (b : Ref sig .tc) (h0 : b ∉ wr0) (n0 : ∀ w, Pipeline.arrRef spec0 w ≠ b) (h1 : b ∉ wr1)
    (n1 : ∀ w, Pipeline.arrRef spec1 w ≠ b) (h2 : b ∉ wr2) : W5 m ρ c (Proc.devRef .tc b) = m ((c : Thread nD τ).loc b) :=
  (h2_keep (W4 m ρ c) b h2).trans (a4 m ρ c b h0 n0 h1 n1)
theorem a6 (b : Ref sig .tc) (h0 : b ∉ wr0) (n0 : ∀ w, Pipeline.arrRef spec0 w ≠ b) (h1 : b ∉ wr1)
    (n1 : ∀ w, Pipeline.arrRef spec1 w ≠ b) (h2 : b ∉ wr2) (n2 : ∀ w, Pipeline.arrRef spec2 w ≠ b) :
    W6 m ρ c (Proc.devRef .tc b) = m ((c : Thread nD τ).loc b) :=
  (W6_of_ne m ρ c b n2).trans (a5 m ρ c b h0 n0 h1 n1 h2)
theorem a7 (b : Ref sig .tc) (h0 : b ∉ wr0) (n0 : ∀ w, Pipeline.arrRef spec0 w ≠ b) (h1 : b ∉ wr1)
    (n1 : ∀ w, Pipeline.arrRef spec1 w ≠ b) (h2 : b ∉ wr2) (n2 : ∀ w, Pipeline.arrRef spec2 w ≠ b) (h3 : b ∉ wr3) :
    W7 m ρ c (Proc.devRef .tc b) = m ((c : Thread nD τ).loc b) :=
  (h3_keep (W6 m ρ c) b h3).trans (a6 m ρ c b h0 n0 h1 n1 h2 n2)

/-! ## A buffer only the first stretch writes, followed back to the first call's entry -/

theorem s2 (b : Ref sig .tc) (n0 : ∀ w, Pipeline.arrRef spec0 w ≠ b) : W2 m ρ c (Proc.devRef .tc b) = W1 m ρ c (Proc.devRef .tc b) :=
  W2_of_ne m ρ c b n0
theorem s4 (b : Ref sig .tc) (n0 : ∀ w, Pipeline.arrRef spec0 w ≠ b) (h1 : b ∉ wr1) (n1 : ∀ w, Pipeline.arrRef spec1 w ≠ b) :
    W4 m ρ c (Proc.devRef .tc b) = W1 m ρ c (Proc.devRef .tc b) :=
  (W4_of_ne m ρ c b n1).trans ((h1_keep (W2 m ρ c) b h1).trans (s2 m ρ c b n0))
theorem s6 (b : Ref sig .tc) (n0 : ∀ w, Pipeline.arrRef spec0 w ≠ b) (h1 : b ∉ wr1) (n1 : ∀ w, Pipeline.arrRef spec1 w ≠ b)
    (h2 : b ∉ wr2) (n2 : ∀ w, Pipeline.arrRef spec2 w ≠ b) : W6 m ρ c (Proc.devRef .tc b) = W1 m ρ c (Proc.devRef .tc b) :=
  (W6_of_ne m ρ c b n2).trans ((h2_keep (W4 m ρ c) b h2).trans (s4 m ρ c b n0 h1 n1))

theorem src1 : W1 m ρ c (Proc.devRef .tc main_v1) = srcOf (m ((c : Thread nD τ).loc main_arg1)) := h0_v1 (W0 m ρ c)
theorem dst1 : W1 m ρ c (Proc.devRef .tc main_v3) = dstOf (m ((c : Thread nD τ).loc main_arg1)) := h0_v3 (W0 m ρ c)

/-! ## The weight column: written by the first stretch, an input window of every call -/

theorem d1 : W1 m ρ c (Proc.devRef .tc main_v11) = dinvCol (m ((c : Thread nD τ).loc main_arg1)) := h0_v11 (W0 m ρ c)
theorem d2 : W2 m ρ c (Proc.devRef .tc main_v11) = dinvCol (m ((c : Thread nD τ).loc main_arg1)) :=
  (W2_arr m ρ c 2).trans (((dat0 (V1 m ρ) c).arrAt_in 2 rfl _).trans ((A_eq0 (V1 m ρ) c 2).trans (d1 m ρ c)))
theorem d3 : W3 m ρ c (Proc.devRef .tc main_v11) = dinvCol (m ((c : Thread nD τ).loc main_arg1)) :=
  (h1_keep (W2 m ρ c) main_v11 (by decide)).trans (d2 m ρ c)
theorem d4 : W4 m ρ c (Proc.devRef .tc main_v11) = dinvCol (m ((c : Thread nD τ).loc main_arg1)) :=
  (W4_arr m ρ c 2).trans (((dat1 (V3 m ρ) c).arrAt_in 2 rfl _).trans ((A_eq1 (V3 m ρ) c 2).trans (d3 m ρ c)))
theorem d5 : W5 m ρ c (Proc.devRef .tc main_v11) = dinvCol (m ((c : Thread nD τ).loc main_arg1)) :=
  (h2_keep (W4 m ρ c) main_v11 (by decide)).trans (d4 m ρ c)
theorem d6 : W6 m ρ c (Proc.devRef .tc main_v11) = dinvCol (m ((c : Thread nD τ).loc main_arg1)) :=
  (W6_arr m ρ c 2).trans (((dat2 (V5 m ρ) c).arrAt_in 2 rfl _).trans ((A_eq2 (V5 m ρ) c 2).trans (d5 m ρ c)))
theorem d7 : W7 m ρ c (Proc.devRef .tc main_v11) = dinvCol (m ((c : Thread nD τ).loc main_arg1)) :=
  (h3_keep (W6 m ρ c) main_v11 (by decide)).trans (d6 m ρ c)

/-! ## The calls' outputs -/

/-- The first call's output: the scaled product of x and the first weights. -/
theorem out0 : W2 m ρ c (Proc.devRef .tc main_v12) = (Region0.G (m ((c : Thread nD τ).loc main_arg0)) (m ((c : Thread nD τ).loc main_arg2)) (dinvCol (m ((c : Thread nD τ).loc main_arg1)))) := by
  refine (W2_arr m ρ c 3).trans ((Region0.final (V1 m ρ) c).trans ?_)
  show Region0.G (W1 m ρ c (Proc.devRef .tc main_arg0)) (W1 m ρ c (Proc.devRef .tc main_arg2)) (W1 m ρ c (Proc.devRef .tc main_v11)) = _
  rw [a1 m ρ c main_arg0 (by decide), a1 m ρ c main_arg2 (by decide), d1 m ρ c]

set_option maxHeartbeats 2000000 in
/-- The second call's output. -/
theorem out1 : W4 m ρ c (Proc.devRef .tc main_v28) = (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) := by
  refine (W4_arr m ρ c 9).trans ((Region1.final (V3 m ρ) c).trans ?_)
  show Region1.G (after hostOps1 (W2 m ρ c) (Proc.devRef .tc main_v22)) (after hostOps1 (W2 m ρ c) (Proc.devRef .tc main_v12)) (W3 m ρ c (Proc.devRef .tc main_v11))
    (after hostOps1 (W2 m ρ c) (Proc.devRef .tc main_v23)) (after hostOps1 (W2 m ρ c) (Proc.devRef .tc main_v24)) (after hostOps1 (W2 m ρ c) (Proc.devRef .tc main_v25)) (after hostOps1 (W2 m ρ c) (Proc.devRef .tc main_v26)) (after hostOps1 (W2 m ρ c) (Proc.devRef .tc main_v27))
    (W3 m ρ c (Proc.devRef .tc main_arg4)) = _
  rw [h1_agg (W2 m ρ c), h1_keep (W2 m ρ c) main_v12 (by decide), d3 m ρ c, h1_v23 (W2 m ρ c), h1_v24 (W2 m ρ c), h1_v25 (W2 m ρ c),
    h1_v26 (W2 m ρ c), h1_v27 (W2 m ρ c), a3 m ρ c main_arg4 (by decide) (by decide) (by decide), out0 m ρ c,
    s2 m ρ c main_v1 (by decide), src1 m ρ c, s2 m ρ c main_v3 (by decide), dst1 m ρ c,
    a2 m ρ c main_arg3 (by decide) (by decide), a2 m ρ c main_arg8 (by decide) (by decide), a2 m ρ c main_arg9 (by decide) (by decide),
    a2 m ρ c main_arg10 (by decide) (by decide), a2 m ρ c main_arg11 (by decide) (by decide)]

set_option maxHeartbeats 2000000 in
/-- The third call's output. -/
theorem out2 : W6 m ρ c (Proc.devRef .tc main_v44) = (Region2.G (agg (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (srcOf (m ((c : Thread nD τ).loc main_arg1))) (dstOf (m ((c : Thread nD τ).loc main_arg1)))) (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (dinvCol (m ((c : Thread nD τ).loc main_arg1))) (row (m ((c : Thread nD τ).loc main_arg5))) (row (m ((c : Thread nD τ).loc main_arg12))) (row (m ((c : Thread nD τ).loc main_arg13))) (row (m ((c : Thread nD τ).loc main_arg14))) (row (m ((c : Thread nD τ).loc main_arg15))) (m ((c : Thread nD τ).loc main_arg6))) := by
  refine (W6_arr m ρ c 9).trans ((Region2.final (V5 m ρ) c).trans ?_)
  show Region2.G (after hostOps2 (W4 m ρ c) (Proc.devRef .tc main_v38)) (after hostOps2 (W4 m ρ c) (Proc.devRef .tc main_v28)) (W5 m ρ c (Proc.devRef .tc main_v11))
    (after hostOps2 (W4 m ρ c) (Proc.devRef .tc main_v39)) (after hostOps2 (W4 m ρ c) (Proc.devRef .tc main_v40)) (after hostOps2 (W4 m ρ c) (Proc.devRef .tc main_v41)) (after hostOps2 (W4 m ρ c) (Proc.devRef .tc main_v42)) (after hostOps2 (W4 m ρ c) (Proc.devRef .tc main_v43))
    (W5 m ρ c (Proc.devRef .tc main_arg6)) = _
  rw [h2_agg (W4 m ρ c), h2_keep (W4 m ρ c) main_v28 (by decide), d5 m ρ c, h2_v39 (W4 m ρ c), h2_v40 (W4 m ρ c), h2_v41 (W4 m ρ c),
    h2_v42 (W4 m ρ c), h2_v43 (W4 m ρ c), a5 m ρ c main_arg6 (by decide) (by decide) (by decide) (by decide) (by decide), out1 m ρ c,
    s4 m ρ c main_v1 (by decide) (by decide) (by decide), src1 m ρ c, s4 m ρ c main_v3 (by decide) (by decide) (by decide), dst1 m ρ c,
    a4 m ρ c main_arg5 (by decide) (by decide) (by decide) (by decide), a4 m ρ c main_arg12 (by decide) (by decide) (by decide) (by decide),
    a4 m ρ c main_arg13 (by decide) (by decide) (by decide) (by decide), a4 m ρ c main_arg14 (by decide) (by decide) (by decide) (by decide),
    a4 m ρ c main_arg15 (by decide) (by decide) (by decide) (by decide)]

set_option maxHeartbeats 2000000 in
/-- The last call's output: the result buffer. -/
theorem out3 : W8 m ρ c (Proc.devRef .tc main_v61) = (Region3.G (agg (Region2.G (agg (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (srcOf (m ((c : Thread nD τ).loc main_arg1))) (dstOf (m ((c : Thread nD τ).loc main_arg1)))) (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (dinvCol (m ((c : Thread nD τ).loc main_arg1))) (row (m ((c : Thread nD τ).loc main_arg5))) (row (m ((c : Thread nD τ).loc main_arg12))) (row (m ((c : Thread nD τ).loc main_arg13))) (row (m ((c : Thread nD τ).loc main_arg14))) (row (m ((c : Thread nD τ).loc main_arg15))) (m ((c : Thread nD τ).loc main_arg6))) (srcOf (m ((c : Thread nD τ).loc main_arg1))) (dstOf (m ((c : Thread nD τ).loc main_arg1)))) (Region2.G (agg (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (srcOf (m ((c : Thread nD τ).loc main_arg1))) (dstOf (m ((c : Thread nD τ).loc main_arg1)))) (Region1.G (agg (Region0.G (m ((c : Thread nD τ).loc main_arg0)) (m ((c : Thread nD τ).loc main_arg2)) (dinvCol (m ((c : Thread nD τ).loc main_arg1)))) (srcOf (m ((c : Thread nD τ).loc main_arg1))) (dstOf (m ((c : Thread nD τ).loc main_arg1)))) (Region0.G (m ((c : Thread nD τ).loc main_arg0)) (m ((c : Thread nD τ).loc main_arg2)) (dinvCol (m ((c : Thread nD τ).loc main_arg1)))) (dinvCol (m ((c : Thread nD τ).loc main_arg1))) (row (m ((c : Thread nD τ).loc main_arg3))) (row (m ((c : Thread nD τ).loc main_arg8))) (row (m ((c : Thread nD τ).loc main_arg9))) (row (m ((c : Thread nD τ).loc main_arg10))) (row (m ((c : Thread nD τ).loc main_arg11))) (m ((c : Thread nD τ).loc main_arg4))) (dinvCol (m ((c : Thread nD τ).loc main_arg1))) (row (m ((c : Thread nD τ).loc main_arg5))) (row (m ((c : Thread nD τ).loc main_arg12))) (row (m ((c : Thread nD τ).loc main_arg13))) (row (m ((c : Thread nD τ).loc main_arg14))) (row (m ((c : Thread nD τ).loc main_arg15))) (m ((c : Thread nD τ).loc main_arg6))) (dinvCol (m ((c : Thread nD τ).loc main_arg1))) (row (m ((c : Thread nD τ).loc main_arg7))) (row (m ((c : Thread nD τ).loc main_arg16))) (row (m ((c : Thread nD τ).loc main_arg17))) (row (m ((c : Thread nD τ).loc main_arg18))) (row (m ((c : Thread nD τ).loc main_arg19))) (m ((c : Thread nD τ).loc main_arg20)) (row64 (m ((c : Thread nD τ).loc main_arg21)))) := by
  refine (W8_arr m ρ c 10).trans ((Region3.final (V7 m ρ) c).trans ?_)
  show Region3.G (after hostOps3 (W6 m ρ c) (Proc.devRef .tc main_v54)) (after hostOps3 (W6 m ρ c) (Proc.devRef .tc main_v44)) (W7 m ρ c (Proc.devRef .tc main_v11))
    (after hostOps3 (W6 m ρ c) (Proc.devRef .tc main_v55)) (after hostOps3 (W6 m ρ c) (Proc.devRef .tc main_v56)) (after hostOps3 (W6 m ρ c) (Proc.devRef .tc main_v57)) (after hostOps3 (W6 m ρ c) (Proc.devRef .tc main_v58)) (after hostOps3 (W6 m ρ c) (Proc.devRef .tc main_v59))
    (W7 m ρ c (Proc.devRef .tc main_arg20)) (after hostOps3 (W6 m ρ c) (Proc.devRef .tc main_v60)) = _
  rw [h3_agg (W6 m ρ c), h3_keep (W6 m ρ c) main_v44 (by decide), d7 m ρ c, h3_v55 (W6 m ρ c), h3_v56 (W6 m ρ c), h3_v57 (W6 m ρ c),
    h3_v58 (W6 m ρ c), h3_v59 (W6 m ρ c), h3_v60 (W6 m ρ c),
    a7 m ρ c main_arg20 (by decide) (by decide) (by decide) (by decide) (by decide) (by decide) (by decide), out2 m ρ c,
    s6 m ρ c main_v1 (by decide) (by decide) (by decide) (by decide) (by decide), src1 m ρ c, s6 m ρ c main_v3 (by decide) (by decide) (by decide) (by decide) (by decide), dst1 m ρ c,
    a6 m ρ c main_arg7 (by decide) (by decide) (by decide) (by decide) (by decide) (by decide), a6 m ρ c main_arg16 (by decide) (by decide) (by decide) (by decide) (by decide) (by decide),
    a6 m ρ c main_arg17 (by decide) (by decide) (by decide) (by decide) (by decide) (by decide), a6 m ρ c main_arg18 (by decide) (by decide) (by decide) (by decide) (by decide) (by decide),
    a6 m ρ c main_arg19 (by decide) (by decide) (by decide) (by decide) (by decide) (by decide), a6 m ρ c main_arg21 (by decide) (by decide) (by decide) (by decide) (by decide) (by decide)]

end Cert.Gcn.KerSide

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«103472_j87651692577500_2_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.LibHostSums.lean ====
/-
  The host's float sum along the leading axis, read at an index, at the ideal values.

  For an [a, b] matrix x the host's sum over axis 0 from an initial value is, at column j, the initial value plus
  the sum over the rows i of x (i, j); for a length-a vector the host's sum over its one axis, a scalar, is the
  initial value plus the sum of its entries. Arbitrary extents. Also: the host's float scatter-add is the exact
  accumulation (stated once over arbitrary shapes, to be used by rewriting). (The library states the first over the reduced
  shape's own index and the second over the operand's index set; here both are sums over Fin a.)
-/
import Idealize.ShloMosaic.PureOps.Ideal.Laws
import Idealize.ShloMosaic.Lib.ValueIdx

noncomputable section

open scoped BigOperators

namespace Idealize.ShloMosaic.HostSums

open Idealize.ShloMosaic Idealize.ShloMosaic.ValueIdx

variable {a b : ℕ}

/-- The column sums on the host: at column j, the initial value plus the sum of the column's entries. -/
theorem hostColSum_apply (x : (⟨2, ![a, b]⟩ : Shape).Idx → EReal) (init : EReal)
    (h' : (⟨2, ![a, b]⟩ : Shape).ReducesTo [0] ⟨1, ![b]⟩) (j : Fin b) :
    Ideal.hostReduceAdd h' x init (ix1 j) = init + ∑ i : Fin a, x (ix2 i j) := by
  have h : (⟨2, ![a, b]⟩ : Shape).Reduces [0] ⟨1, ![b]⟩ := ⟨h'.1, Nat.one_pos, h'.2⟩
  rw [Ideal.hostReduceAdd_single h' h]
  refine congrArg (init + ·) (Finset.sum_congr rfl fun i _ => ?_)
  exact congrArg x (funext fun c => Fin.ext (by match c with | ⟨0, _⟩ => rfl | ⟨1, _⟩ => rfl))

/-- A vector's indices are its positions. -/
def idxEquiv1 {n : ℕ} : (⟨1, ![n]⟩ : Shape).Idx ≃ Fin n where
  toFun j := j 0
  invFun := ix1
  left_inv j := (eq_ix1 j).symm
  right_inv _ := rfl

/-- A sum over a vector's index set is the sum over its positions. -/
theorem sum_idx1 {M : Type*} [AddCommMonoid M] {n : ℕ} (f : (⟨1, ![n]⟩ : Shape).Idx → M) :
    ∑ j, f j = ∑ i : Fin n, f (ix1 i) :=
  Fintype.sum_equiv idxEquiv1 f (fun i => f (ix1 i)) fun j => congrArg f (eq_ix1 j)

/-- The host's sum of a vector: the initial value plus the sum of the entries. -/
theorem hostVecSum_apply (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ i : Fin a, x (ix1 i) := by
  rw [Ideal.hostReduceAdd_total h' (fun b => b.elim0) x init j, sum_idx1]

/-- The host's float scatter-add at the ideal values is the exact accumulation, whatever the shapes. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

end Idealize.ShloMosaic.HostSums

end
-- ==== Proof.GraphOk.lean ====
/-
  The graph read off the edge array satisfies what the convolution law needs.

  (a) An edge e is summed into node d when its destination number, read signed, is d. That number is then not
  negative, so the gather's "count from the end when negative" select takes the number itself, and its clamp into
  [0, 49999] leaves d < 50000 alone: the coefficient row of e is d.

  (b), (c) The weight of node d is the inverse square root of 1 + the number of edges summed into d: a scatter of
  ones into zeros at the destination numbers, plus one. That degree is a real number ≥ 1, so its inverse square
  root is a non-negative real number.
-/
import proofs.«103472_j87651692577500_2_alg».proof.Proof.Graph
import proofs.«103472_j87651692577500_2_alg».proof.Proof.LibScatterVec
import proofs.«103472_j87651692577500_2_alg».proof.Proof.LibHostSums

noncomputable section

namespace Cert.Gcn

open Idealize.ShloMosaic Idealize.ShloMosaic.ValueIdx Cert.ReferenceIdeal Cert.ReferenceIdeal.Read

/-! ### The index columns at an edge -/

/-- The scatter's index column at edge e is the destination number of e. -/
theorem v6_at (x1 : (⟨S2x800000, .i32⟩ : BufTy).Contents (Elt Ideal)) (e : Fin 800000) :
    val_main_v6 (F := Ideal) x1 (ix2 e (0 : Fin 1)) = val_main_v3 (F := Ideal) x1 (ix1 e) := by
  rw [val_main_v6_apply]
  refine congrArg _ (funext fun a => ?_)
  match a with
  | ⟨0, _⟩ => rfl

/-- A signed comparison with the constant 0 fails on a number that is not negative. -/
theorem cmpi_slt_zero_of_nonneg (b : BitVec 32) (h : 0 ≤ b.toInt) : IntOp.cmpi .slt b 0#32 ≠ 1 := by
  intro hc
  have hlt : b.slt 0#32 = false := by
    simp only [BitVec.slt, BitVec.toInt_zero, decide_eq_false_iff_not, Int.not_lt]
    exact h
  have : BitVec.ofBool (b.slt 0#32) = 1 := hc
  rw [hlt] at this
  exact absurd this (by decide)

/-- The gather's index column at edge e is the destination number of e when that number is not negative. -/
theorem v24_at (x1 : (⟨S2x800000, .i32⟩ : BufTy).Contents (Elt Ideal)) (e : Fin 800000)
    (h : 0 ≤ (val_main_v3 (F := Ideal) x1 (ix1 e)).toInt) :
    val_main_v24 (F := Ideal) x1 (ix2 e (0 : Fin 1)) = val_main_v3 (F := Ideal) x1 (ix1 e) := by
  rw [val_main_v24_apply]
  have hi : idx_main_v24 (ix2 e (0 : Fin 1)) = ix1 e := by
    funext a
    match a with
    | ⟨0, _⟩ => rfl
  rw [hi, val_main_v23_apply, val_main_v20_apply, val_main_v19_apply, val_main_c_3_apply]
  unfold Scalar.select
  rw [if_neg (cmpi_slt_zero_of_nonneg _ h)]

/-- An edge summed into node d has coefficient row d. -/
theorem dst_of_hit (x1 : (⟨S2x800000, .i32⟩ : BufTy).Contents (Elt Ideal)) (d : Fin 50000) (e : Fin 800000)
    (he : e ∈ ScatterRows.hits (N := 50000) (val_main_v6 (F := Ideal) x1) d) :
    GatherRows.rowOf (N := 50000) (by norm_num) (val_main_v24 (F := Ideal) x1) e = d := by
  have h6 : (val_main_v6 (F := Ideal) x1 (ix2 e (0 : Fin 1))).toInt = (d.val : ℤ) := (Finset.mem_filter.mp he).2
  rw [v6_at] at h6
  have h0 : 0 ≤ (val_main_v3 (F := Ideal) x1 (ix1 e)).toInt := by rw [h6]; exact Int.natCast_nonneg _
  unfold GatherRows.rowOf
  refine Fin.ext ?_
  show min (val_main_v24 (F := Ideal) x1 (ix2 e (0 : Fin 1))).toInt.toNat (50000 - 1) = d.val
  rw [v24_at x1 e h0, h6]
  have hd := d.isLt
  omega

/-! ### The weights -/

/-- The f32 word 0x3F800000 is the number one. -/
theorem ofBits_one_f32 : Ideal.ofBits .f32 0x3F800000#32 = 1 := by
  simp [Ideal.ofBits, Ideal.ieee, -EReal.coe_mul]; norm_num

/-- The scatter of ones into zeros at node d: the number of edges summed into d. -/
theorem v7_at (x1 : (⟨S2x800000, .i32⟩ : BufTy).Contents (Elt Ideal)) (d : Fin 50000) :
    val_main_v7 (F := Ideal) x1 (ix1 d)
      = (((ScatterRows.hits (N := 50000) (val_main_v6 (F := Ideal) x1) d).card : ℝ) : EReal) := by
  unfold val_main_v7
  rw [HostSums.hostScatterAdd_eq]
  have hrec : scatter_S50000_S800000x1_S800000_n_0_0_1
      = ScatterVec.vecDims 50000 800000 Facts₀.scatter_S50000_S800000x1_S800000_n_0_0_1_wf := rfl
  rw [hrec, ScatterVec.scatterAdd_vec_apply]
  have h5 : val_main_v5 (F := Ideal) (ix1 d) = 0 := by
    rw [val_main_v5_apply, val_main_cst_0_apply, Ideal.ofBits_def, Ideal.ofBits_zero_f32]
  have h4 : ∀ e : Fin 800000, val_main_v4 (F := Ideal) (ix1 e) = 1 := fun e => by
    rw [val_main_v4_apply, val_main_cst_apply, Ideal.ofBits_def, ofBits_one_f32]
  rw [h5, zero_add, Finset.sum_congr rfl (fun e _ => h4 e), Finset.sum_const, EReal.nsmul_eq_mul, mul_one,
    EReal.coe_coe_eq_natCast]

/-- The degree of node d: one more than the number of edges summed into it. -/
theorem v9_at (x1 : (⟨S2x800000, .i32⟩ : BufTy).Contents (Elt Ideal)) (d : Fin 50000) :
    val_main_v9 (F := Ideal) x1 (ix1 d)
      = ((((ScatterRows.hits (N := 50000) (val_main_v6 (F := Ideal) x1) d).card : ℝ) + 1 : ℝ) : EReal) := by
  have h8 : val_main_v8 (F := Ideal) (ix1 d) = 1 := by
    rw [val_main_v8_apply, val_main_cst_1_apply, Ideal.ofBits_def, ofBits_one_f32]
  rw [val_main_v9_apply, Ideal.addf_def, v7_at, h8, EReal.coe_add, EReal.coe_one]

/-- The weight of node d is the inverse square root of its degree, a real number. -/
theorem v10_at (x1 : (⟨S2x800000, .i32⟩ : BufTy).Contents (Elt Ideal)) (d : Fin 50000) :
    val_main_v10 (F := Ideal) x1 (ix1 d)
      = (((Real.sqrt (((ScatterRows.hits (N := 50000) (val_main_v6 (F := Ideal) x1) d).card : ℝ) + 1))⁻¹ : ℝ) : EReal) := by
  have hr : (0 : ℝ) < ((ScatterRows.hits (N := 50000) (val_main_v6 (F := Ideal) x1) d).card : ℝ) + 1 := by positivity
  rw [val_main_v10_apply, Ideal.hostUnary_rsqrt_def, v9_at, Ideal.rsqrt_coe, if_neg (not_lt.mpr hr.le), if_neg hr.ne']

/-- The graph read off the edge array satisfies what the convolution law needs. -/
theorem graphOf_ok (x1 : (⟨S2x800000, .i32⟩ : BufTy).Contents (Elt Ideal)) : (graphOf x1).Ok := by
  refine ⟨dst_of_hit x1, fun d => ?_, fun d => ?_⟩
  · show 0 ≤ val_main_v10 (F := Ideal) x1 (ix1 d)
    rw [v10_at]
    exact EReal.coe_nonneg.mpr (inv_nonneg.mpr (Real.sqrt_nonneg _))
  · show val_main_v10 (F := Ideal) x1 (ix1 d) ≠ ⊤
    rw [v10_at]
    exact EReal.coe_ne_top _

end Cert.Gcn

end
-- ==== Proof.KerMath.lean ====
/-
  The kernel's pieces, read as the specification's: the node weights kept as a column, the aggregate, the
  parameter rows, and with them each pallas_call's whole-array function as the row-scaled layer of the network.
-/
import proofs.«103472_j87651692577500_2_alg».proof.Proof.Glue
import proofs.«103472_j87651692577500_2_alg».proof.Proof.Hidden
import proofs.«103472_j87651692577500_2_alg».proof.Proof.GraphOk
import proofs.«103472_j87651692577500_2_alg».proof.Proof.LibScatterRows
import proofs.«103472_j87651692577500_2_alg».proof.Proof.LibGatherRows
import proofs.«103472_j87651692577500_2_alg».proof.Proof.LibHostSums
import proofs.«103472_j87651692577500_2_alg».proof.Proof.LibKeepdims
import Idealize.ShloMosaic.Lib.ValueLayout

noncomputable section

open scoped BigOperators

namespace Cert.Gcn.KerMath

open Idealize.ShloMosaic Idealize.ShloMosaic.ValueIdx Cert.Gcn Cert.Gcn.Glue

/-! ## The kernel's host arrays are the graph's -/

/-- The row scatter's dimension numbers are the general ones at the literal extents. -/
theorem scatter_rec : Cert.KernelIdeal.scatter_S50000x128_S800000x1_S800000x128_1_0_0_1
    = ScatterRows.rowDims 50000 800000 128 Cert.KernelIdeal.Gen.scatter_S50000x128_S800000x1_S800000x128_1_0_0_1_wf := rfl

/-- The row gather's dimension numbers are the general ones at the literal extents. -/
theorem gather_rec : Cert.KernelIdeal.gather_S50000x128_S800000x1_S800000x128_1_0_n_n_0_1_1128
    = GatherRows.rowDims 50000 800000 128 Cert.KernelIdeal.Gen.gather_S50000x128_S800000x1_S800000x128_1_0_n_n_0_1_1128_wf := rfl

section
variable (x1 : (⟨Cert.KernelIdeal.S2x800000, .i32⟩ : BufTy).Contents (Elt Ideal))

/-- The weight column at row r is the weight of node r: the column is the vector of weights, cast. -/
theorem dinvCol_apply (r : Fin 50000) : dinvCol x1 (ix2 r (0 : Fin 1)) = (graphOf x1).dinv r := by
  unfold dinvCol
  rw [Keepdims.shapeCast_a_a1_apply]
  rfl

/-- The edges the aggregate sums into node d are the graph's. -/
theorem hits_k (d : Fin 50000) :
    ScatterRows.hits (N := 50000)
        (broadcastInDim Cert.KernelIdeal.S800000x1 ![0] Cert.KernelIdeal.Gen.bcast_S800000_S800000x1_0 (dstOf x1)) d
      = (graphOf x1).hits d := rfl

/-- The row the aggregate's gather reads for edge e is the graph's source row. -/
theorem src_k (e : Fin 800000) :
    GatherRows.rowOf (N := 50000) (by norm_num) (normCol (srcOf x1)) e = (graphOf x1).srcRow e := rfl

/-- The array of zeros the aggregate starts from. -/
theorem zeros_k (i : Cert.KernelIdeal.S50000x128.Idx) :
    broadcastInDim Cert.KernelIdeal.S50000x128 ![] Cert.KernelIdeal.Gen.bcast_S_S50000x128
      (constant (F := Ideal) Cert.KernelIdeal.S_ .f32 0x00000000#32) i = 0 := by
  rw [broadcastInDim_apply _ _ _ i (fun a => a.elim0) (fun a => a.elim0)]
  exact Ideal.ofBits_zero_f32

/-- The aggregate at (d, c): from zero, the sum over the edges into d of the source rows' entries. -/
theorem agg_apply (hws : Mat 50000 128) (d : Fin 50000) (c : Fin 128) :
    agg hws (srcOf x1) (dstOf x1) (ix2 d c) = 0 + ∑ e ∈ (graphOf x1).hits d, hws (ix2 ((graphOf x1).srcRow e) c) := by
  unfold agg
  rw [HostSums.hostScatterAdd_eq, scatter_rec, ScatterRows.scatterAdd_rows_apply, zeros_k, hits_k]
  refine congrArg (0 + ·) (Finset.sum_congr rfl fun e _ => ?_)
  rw [gather_rec, GatherRows.gather_rows_apply (N := 50000) (by norm_num), src_k]

end

/-- A parameter vector as one row, at (0, k): the vector at k. -/
theorem row_apply (b : Vct 128) (k : Fin 128) : row b (ix2 (0 : Fin 1) k) = b (ix1 k) := by
  unfold row
  exact shapeCast_a_1a_apply b _ 0 k

/-- The head's bias as one row, at (0, q): the vector at q. -/
theorem row64_apply (bh : Vct 64) (q : Fin 64) : row64 bh (ix2 (0 : Fin 1) q) = bh (ix1 q) := by
  unfold row64
  exact shapeCast_a_1a_apply bh _ 0 q

/-! ## A fused call's hidden state is the rectified, normalised convolution from row-scaled features -/

/-- The hidden state formed from the aggregate, the scaled features, the weight column and the parameter rows is the
    specification's: the two are the same expression, entry by entry. -/
theorem hidden_eq (x1 : (⟨Cert.KernelIdeal.S2x800000, .i32⟩ : BufTy).Contents (Elt Ideal)) (hws : Mat 50000 128)
    (b gm be mu var : Vct 128) :
    hidden (agg hws (srcOf x1) (dstOf x1)) hws (dinvCol x1) (row b) (row gm) (row be) (row mu) (row var)
      = bnRelu eps (kerPre (graphOf x1) hws b) gm be mu var := by
  funext j
  obtain ⟨r, q, rfl⟩ : ∃ (r : Fin 50000) (q : Fin 128), j = ix2 r q := ⟨j 0, j 1, eq_ix2 j⟩
  show max ((((dinvCol x1 (ix2 r (0 : Fin 1)) * (agg hws (srcOf x1) (dstOf x1) (ix2 r q) + hws (ix2 r q)) + row b (ix2 (0 : Fin 1) q))
        - row mu (ix2 (0 : Fin 1) q)) * Ideal.rsqrt (row var (ix2 (0 : Fin 1) q) + eps)) * row gm (ix2 (0 : Fin 1) q)
        + row be (ix2 (0 : Fin 1) q)) 0
    = max (((graphOf x1).dinv r * ((0 + ∑ e ∈ (graphOf x1).hits r, hws (ix2 ((graphOf x1).srcRow e) q)) + hws (ix2 r q)) + b (ix1 q)
        - mu (ix1 q)) * Ideal.rsqrt (var (ix1 q) + eps) * gm (ix1 q) + be (ix1 q)) 0
  rw [dinvCol_apply, agg_apply, row_apply, row_apply, row_apply, row_apply, row_apply]

/-! ## The calls' whole-array functions -/

/-- The first call's function is the first layer's row-scaled product. -/
theorem layer0 (x1 : (⟨Cert.KernelIdeal.S2x800000, .i32⟩ : BufTy).Contents (Elt Ideal)) (x : Mat 50000 128) (W : Mat 128 128) :
    (fun i => dense x W i * dinvCol x1 (ix2 (i 0) (0 : Fin 1)) : Mat 50000 128) = scaled (graphOf x1) (dense x W) := by
  funext i
  exact congrArg (dense x W i * ·) (dinvCol_apply x1 (i 0))

/-- A fused call's function is the next layer's row-scaled product of the rectified, normalised convolution. -/
theorem layer (x1 : (⟨Cert.KernelIdeal.S2x800000, .i32⟩ : BufTy).Contents (Elt Ideal)) (hws : Mat 50000 128)
    (b gm be mu var : Vct 128) (W : Mat 128 128) :
    (fun i => dense (hidden (agg hws (srcOf x1) (dstOf x1)) hws (dinvCol x1) (row b) (row gm) (row be) (row mu) (row var)) W i
        * dinvCol x1 (ix2 (i 0) (0 : Fin 1)) : Mat 50000 128)
      = scaled (graphOf x1) (dense (bnRelu eps (kerPre (graphOf x1) hws b) gm be mu var) W) := by
  rw [hidden_eq]
  funext i
  exact congrArg (dense (bnRelu eps (kerPre (graphOf x1) hws b) gm be mu var) W i * ·) (dinvCol_apply x1 (i 0))

/-- The last call's function is the head on the rectified, normalised convolution. -/
theorem head (x1 : (⟨Cert.KernelIdeal.S2x800000, .i32⟩ : BufTy).Contents (Elt Ideal)) (hws : Mat 50000 128)
    (b gm be mu var : Vct 128) (Wh : Mat 128 64) (bh : Vct 64) :
    (fun i => dense (hidden (agg hws (srcOf x1) (dstOf x1)) hws (dinvCol x1) (row b) (row gm) (row be) (row mu) (row var)) Wh i
        + row64 bh (ix2 (0 : Fin 1) (i 1)) : Mat 50000 64)
      = fun i => dense (bnRelu eps (kerPre (graphOf x1) hws b) gm be mu var) Wh i + bh (ix1 (i 1)) := by
  rw [hidden_eq]
  funext i
  exact congrArg (dense (bnRelu eps (kerPre (graphOf x1) hws b) gm be mu var) Wh i + ·) (row64_apply bh (i 1))

end Cert.Gcn.KerMath

end
-- ==== Proof.LibGatherVec.lean ====
/-
  A gather from a vector read at an entry.

  What x[idx] of a vector x of N entries at a vector of R entry numbers lowers to: a gather with no offset axis,
  collapsed slice axis 0, start index map [0], the index vector on axis 1 of the start indices [R, 1], and slices of
  size [1]. Its entry e is x at the entry (the start index idx (e, 0), read as a signed integer and clamped into
  [0, N - 1]): the same clamped entry number as the row a row gather of an [N, C] array with the same start indices
  reads. The extents N, R and the element type are arbitrary.
-/
import proofs.«103472_j87651692577500_2_alg».proof.Proof.LibGatherRows

noncomputable section

namespace Idealize.ShloMosaic.GatherVec

open Idealize.ShloMosaic Idealize.ShloMosaic.ValueIdx

variable {α : Type}

/-- The dimension numbers of a gather from a vector, for an operand [N], start indices [R, 1] and a result [R]; their
    conditions are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather from a vector at entry e: the operand at the clamped start entry (the row a row gather with the same
    start indices reads). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e) = x (ix1 (GatherRows.rowOf hN idx e)) := by
  unfold Host.gather
  congr 1
  funext a
  refine Fin.ext ?_
  match a with
  | ⟨0, _⟩ =>
    show (vecDims N R wf).start (ix1 e) idx 0 + (vecDims N R wf).batchCoord (ix1 e) 0
      + (vecDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 e) ⟨List.idxOf (0 : Fin 1) (vecDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The whole result: the operand's entries picked by the clamped start indices. -/
theorem gather_vec {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) :
    Host.gather (vecDims N R wf) x idx = fun i => x (ix1 (GatherRows.rowOf hN idx (i 0))) := by
  funext i
  obtain ⟨e, rfl⟩ : ∃ e : Fin R, i = ix1 e := ⟨i 0, eq_ix1 i⟩
  exact gather_vec_apply hN wf x idx e

end Idealize.ShloMosaic.GatherVec

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«103472_j87651692577500_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«103472_j87651692577500_2_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.LibBcastVec.lean ====
/-
  A vector broadcast along one new axis, read at an entry.

  A length-b vector x placed as the row of a [1, b] matrix (broadcast_in_dim along axis 1) reads x k at (u, k); placed
  as the column of an [a, 1] matrix (along axis 0) it reads x i at (i, u); and a one-element vector spread over a
  length-a vector (along axis 0) reads its one entry everywhere. Arbitrary extents and element type.
-/
import Idealize.ShloMosaic.Lib.Pipeline.Value
import Idealize.ShloMosaic.Lib.ValueIdx

noncomputable section

namespace Idealize.ShloMosaic.BcastVec

open Idealize.ShloMosaic Idealize.ShloMosaic.ValueIdx

variable {α : Type}

/-- A vector as a one-row matrix: entry (u, k) is the vector's entry k. -/
theorem bcast_vec_row_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply _ h x _ _ (fun a => by
    match a with
    | ⟨0, _⟩ =>
      show k.val = if b = 1 then 0 else k.val
      split
      · omega
      · rfl)

/-- A vector as a one-column matrix: entry (i, u) is the vector's entry i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · omega
      · rfl)

/-- A one-element vector spread over a vector: every entry is the one element. -/
theorem bcast_one_apply {a : ℕ} (x : (⟨1, ![1]⟩ : Shape).Idx → α)
    (h : (⟨1, ![1]⟩ : Shape).BroadcastsInDim ⟨1, ![a]⟩ ![0]) (i : Fin a) :
    broadcastInDim ⟨1, ![a]⟩ ![0] h x (ix1 i) = x (ix1 (0 : Fin 1)) :=
  broadcastInDim_apply _ h x _ _ (fun c => by
    match c with
    | ⟨0, _⟩ => rfl)

end Idealize.ShloMosaic.BcastVec

end
-- ==== Proof.RefSide.lean ====
/-
  The reference program's result is the network with one coefficient per edge, entry by entry.

  Each of the three layers is the same composition of array operations on different arrays: a matrix product, a
  convolution (gather the source rows, scale each by its edge's coefficient, sum the scaled rows into their
  destination nodes, add the node's own row scaled by its squared weight, add the bias), a normalisation with given
  statistics, and a rectifier. Each piece is read once, entry by entry, over arbitrary arrays; the layers are then
  instances of the pieces.
-/
import proofs.«103472_j87651692577500_2_alg».proof.Proof.Graph
import proofs.«103472_j87651692577500_2_alg».proof.Proof.LibGatherVec
import proofs.«103472_j87651692577500_2_alg».proof.Proof.LibScatterVec
import proofs.«103472_j87651692577500_2_alg».proof.Proof.LibHostDotPlain
import proofs.«103472_j87651692577500_2_alg».proof.Proof.LibHostSums
import proofs.«103472_j87651692577500_2_alg».proof.Proof.LibHostColRow
import proofs.«103472_j87651692577500_2_alg».proof.Proof.LibBcastVec

noncomputable section

open scoped BigOperators

namespace Cert.Gcn.RefSide

open Idealize.ShloMosaic Idealize.ShloMosaic.ValueIdx Cert.ReferenceIdeal Cert.ReferenceIdeal.Gen Cert.ReferenceIdeal.Read Cert.Gcn

/-! ## The dimension numbers of the program are the general ones at the literal extents -/

theorem gatherRows_rec : gather_S50000x128_S800000x1_S800000x128_1_0_n_n_0_1_1128
    = GatherRows.rowDims 50000 800000 128 Cert.ReferenceIdeal.Gen.gather_S50000x128_S800000x1_S800000x128_1_0_n_n_0_1_1128_wf := rfl

theorem gatherVec_rec : gather_S50000_S800000x1_S800000_n_0_n_n_0_1_1
    = GatherVec.vecDims 50000 800000 Cert.ReferenceIdeal.Gen.gather_S50000_S800000x1_S800000_n_0_n_n_0_1_1_wf := rfl

theorem scatterRows_rec : scatter_S50000x128_S800000x1_S800000x128_1_0_0_1
    = ScatterRows.rowDims 50000 800000 128 Cert.ReferenceIdeal.Gen.scatter_S50000x128_S800000x1_S800000x128_1_0_0_1_wf := rfl

theorem dot128_rec : dot_S50000x128_S128x128_S50000x128_1_0_0_1_n_n = DotDims.plain 50000 128 128 := rfl

theorem dot64_rec : dot_S50000x128_S128x64_S50000x64_1_0_0_1_n_n = DotDims.plain 50000 128 64 := rfl

/-! ## The pieces of a layer, over arbitrary arrays -/

/-- A vector of per-channel values spread over all the nodes. -/
def rowB (v : FVec Ideal S128 .f32) : FVec Ideal S50000x128 .f32 :=
  broadcastInDim S50000x128 ![0, 1] bcast_S1x128_S50000x128_0_1 (broadcastInDim S1x128 ![1] bcast_S128_S1x128_1 v)

/-- The spread vector at (d, c) is the vector at c. -/
theorem rowB_apply (v : FVec Ideal S128 .f32) (d : Fin 50000) (c : Fin 128) : rowB v (ix2 d c) = v (ix1 c) := by
  unfold rowB
  rw [HostColRow.bcast_row_apply]
  exact BcastVec.bcast_vec_row_apply v _ _ _

/-- The matrix product of the layers is the entry-by-entry one. -/
theorem dot128_eq (A : FVec Ideal S50000x128 .f32) (B : FVec Ideal S128x128 .f32) :
    Host.dotGeneral dot_S50000x128_S128x128_S50000x128_1_0_0_1_n_n none A B = dense A B := by
  funext j
  rw [dot128_rec]
  exact HostDotPlain.dotGeneral_apply none A B j

/-- The matrix product of the head is the entry-by-entry one. -/
theorem dot64_eq (A : FVec Ideal S50000x128 .f32) (B : FVec Ideal S128x64 .f32) :
    Host.dotGeneral dot_S50000x128_S128x64_S50000x64_1_0_0_1_n_n none A B = dense A B := by
  funext j
  rw [dot64_rec]
  exact HostDotPlain.dotGeneral_apply none A B j

section
variable (x1 : (⟨S2x800000, .i32⟩ : BufTy).Contents (Elt Ideal))

/-- The start indices of the row gather are those of the first weight gather. -/
theorem idx_src : val_main_v32 (F := Ideal) x1 = val_main_v17 (F := Ideal) x1 := rfl

/-- The indices of the row scatter are those of the degree count. -/
theorem idx_hit : val_main_v38 (F := Ideal) x1 = val_main_v6 (F := Ideal) x1 := rfl

/-- The coefficient of an edge: the weight of its source row times the weight of its coefficient row. -/
theorem coef_apply (e : Fin 800000) :
    val_main_v26 (F := Ideal) x1 (ix1 e)
      = (graphOf x1).dinv ((graphOf x1).srcRow e) * (graphOf x1).dinv ((graphOf x1).dstRow e) := by
  rw [val_main_v26_apply, Ideal.mulf_def]
  unfold val_main_v18 val_main_v25
  rw [gatherVec_rec, GatherVec.gather_vec_apply (N := 50000) (by norm_num), GatherVec.gather_vec_apply (N := 50000) (by norm_num)]
  rfl

/-- The coefficients spread over the channels, at (e, c): the coefficient of edge e. -/
theorem coefB_apply (e : Fin 800000) (c : Fin 128) :
    val_main_v35 (F := Ideal) x1 (ix2 e c)
      = (graphOf x1).dinv ((graphOf x1).srcRow e) * (graphOf x1).dinv ((graphOf x1).dstRow e) := by
  unfold val_main_v35 val_main_v34
  rw [HostColRow.bcast_col_apply, BcastVec.bcast_vec_col_apply]
  exact coef_apply x1 e

/-- The weight of a node is the program's array of weights at the node. -/
theorem dinv_eq (d : Fin 50000) : (graphOf x1).dinv d = val_main_v10 (F := Ideal) x1 (ix1 d) := rfl

/-- The squared weights spread over the channels, at (d, c): the squared weight of node d. -/
theorem selfB_apply (d : Fin 50000) (c : Fin 128) :
    val_main_v42 (F := Ideal) x1 (ix2 d c) = (graphOf x1).dinv d * (graphOf x1).dinv d := by
  unfold val_main_v42 val_main_v41
  rw [HostColRow.bcast_col_apply, BcastVec.bcast_vec_col_apply, val_main_v40_apply, Ideal.mulf_def, dinv_eq]

/-- The array of zeros the sums start from. -/
theorem zeros_apply (i : S50000x128.Idx) : val_main_v37 (F := Ideal) i = 0 := by
  rw [val_main_v37_apply, val_main_cst_7_apply, Ideal.ofBits_def, Ideal.ofBits_zero_f32]

/-- A sum of two arrays at an entry. -/
theorem addf_at {s : Shape} (x y : FVec Ideal s .f32) (i : s.Idx) : addf x y i = x i + y i := rfl
/-- A product of two arrays at an entry. -/
theorem mulf_at {s : Shape} (x y : FVec Ideal s .f32) (i : s.Idx) : mulf x y i = x i * y i := rfl
/-- A difference of two arrays at an entry. -/
theorem subf_at {s : Shape} (x y : FVec Ideal s .f32) (i : s.Idx) : subf x y i = x i - y i := rfl
/-- The larger of two arrays at an entry. -/
theorem maximumf_at {s : Shape} (x y : FVec Ideal s .f32) (i : s.Idx) : maximumf x y i = max (x i) (y i) := rfl
/-- The inverse square root of an array at an entry. -/
theorem rsqrt_at {s : Shape} (x : FVec Ideal s .f32) (i : s.Idx) : Host.rsqrt x i = Ideal.rsqrt (x i) := rfl

/-- The edges summed into a node are those the degree count's indices send to it. -/
theorem hits_eq (d : Fin 50000) :
    (graphOf x1).hits d = ScatterRows.hits (N := 50000) (val_main_v6 (F := Ideal) x1) d := rfl

/-- The source row of an edge is the row the first weight gather's start index reads. -/
theorem src_eq (e : Fin 800000) :
    (graphOf x1).srcRow e = GatherRows.rowOf (N := 50000) (by norm_num) (val_main_v17 (F := Ideal) x1) e := rfl

/-- One convolution in the program's operations, over arbitrary features and bias. -/
def convHost (hw : FVec Ideal S50000x128 .f32) (b : FVec Ideal S128 .f32) : FVec Ideal S50000x128 .f32 :=
  addf (addf (Host.scatterAdd scatter_S50000x128_S800000x1_S800000x128_1_0_0_1 (val_main_v37 (F := Ideal)) (val_main_v38 (F := Ideal) x1)
        (mulf (Host.gather gather_S50000x128_S800000x1_S800000x128_1_0_n_n_0_1_1128 hw (val_main_v32 (F := Ideal) x1)) (val_main_v35 (F := Ideal) x1)))
      (mulf hw (val_main_v42 (F := Ideal) x1)))
    (rowB b)

/-- The program's convolution at (d, c): the sum over the edges into d of the source rows' entries times the edges'
    coefficients, from zero; plus the node's own entry times its squared weight; plus the bias. -/
theorem convHost_apply (hw : FVec Ideal S50000x128 .f32) (b : FVec Ideal S128 .f32) (d : Fin 50000) (c : Fin 128) :
    convHost x1 hw b (ix2 d c)
      = ((0 + ∑ e ∈ (graphOf x1).hits d, hw (ix2 ((graphOf x1).srcRow e) c)
              * ((graphOf x1).dinv ((graphOf x1).srcRow e) * (graphOf x1).dinv ((graphOf x1).dstRow e)))
          + hw (ix2 d c) * ((graphOf x1).dinv d * (graphOf x1).dinv d)) + b (ix1 c) := by
  unfold convHost
  rw [addf_at, addf_at, mulf_at]
  rw [HostSums.hostScatterAdd_eq, scatterRows_rec, ScatterRows.scatterAdd_rows_apply, zeros_apply, selfB_apply, rowB_apply,
    idx_hit, hits_eq]
  refine congrArg (fun s => (0 + s + hw (ix2 d c) * ((graphOf x1).dinv d * (graphOf x1).dinv d)) + b (ix1 c))
    (Finset.sum_congr rfl fun e _ => ?_)
  rw [mulf_at, gatherRows_rec, GatherRows.gather_rows_apply (N := 50000) (by norm_num), coefB_apply, idx_src, src_eq]

/-- The program's convolution is the convolution with one coefficient per edge. -/
theorem convHost_eq (hw : FVec Ideal S50000x128 .f32) (b : FVec Ideal S128 .f32) :
    convHost x1 hw b = refConv (graphOf x1) hw b := by
  funext i
  obtain ⟨d, c, rfl⟩ : ∃ (d : Fin 50000) (c : Fin 128), i = ix2 d c := ⟨i 0, i 1, eq_ix2 i⟩
  exact convHost_apply x1 hw b d c

end

/-- The literal added to a variance, spread over the channels. -/
theorem eps_apply (i : S128.Idx) : val_main_v51 (F := Ideal) i = eps := by
  rw [val_main_v51_apply, val_main_cst_8_apply, Ideal.ofBits_def]
  rfl

/-- The array of zeros the rectifier compares with. -/
theorem relu0_apply (i : S50000x128.Idx) : val_main_call0_v0 (F := Ideal) i = 0 := by
  rw [val_main_call0_v0_apply, val_main_call0_cst_apply, Ideal.ofBits_def, Ideal.ofBits_zero_f32]

/-- The normalisation and the rectifier in the program's operations, over arbitrary arrays. -/
def bnHost (pre : FVec Ideal S50000x128 .f32) (gm be mu var : FVec Ideal S128 .f32) : FVec Ideal S50000x128 .f32 :=
  maximumf (addf (mulf (mulf (subf pre (rowB mu)) (rowB (Host.rsqrt (addf var (val_main_v51 (F := Ideal)))))) (rowB gm)) (rowB be))
    (val_main_call0_v0 (F := Ideal))

/-- The program's normalisation and rectifier are the entry-by-entry ones. -/
theorem bnHost_eq (pre : FVec Ideal S50000x128 .f32) (gm be mu var : FVec Ideal S128 .f32) :
    bnHost pre gm be mu var = bnRelu eps pre gm be mu var := by
  funext i
  obtain ⟨d, c, rfl⟩ : ∃ (d : Fin 50000) (c : Fin 128), i = ix2 d c := ⟨i 0, i 1, eq_ix2 i⟩
  unfold bnHost
  rw [maximumf_at, addf_at, mulf_at, mulf_at, subf_at, rowB_apply, rowB_apply, rowB_apply, rowB_apply, rsqrt_at, addf_at,
    eps_apply, relu0_apply]
  rfl

/-- The head in the program's operations: a matrix product plus a bias spread over the nodes. -/
def headHost (h : FVec Ideal S50000x128 .f32) (Wh : FVec Ideal S128x64 .f32) (bh : FVec Ideal S64 .f32) :
    FVec Ideal S50000x64 .f32 :=
  addf (Host.dotGeneral dot_S50000x128_S128x64_S50000x64_1_0_0_1_n_n none h Wh)
    (broadcastInDim S50000x64 ![0, 1] bcast_S1x64_S50000x64_0_1 (broadcastInDim S1x64 ![1] bcast_S64_S1x64_1 bh))

/-- The program's head is the entry-by-entry one. -/
theorem headHost_eq (h : FVec Ideal S50000x128 .f32) (Wh : FVec Ideal S128x64 .f32) (bh : FVec Ideal S64 .f32) :
    headHost h Wh bh = fun i => dense h Wh i + bh (ix1 (i 1)) := by
  funext i
  obtain ⟨d, c, rfl⟩ : ∃ (d : Fin 50000) (c : Fin 64), i = ix2 d c := ⟨i 0, i 1, eq_ix2 i⟩
  unfold headHost
  rw [addf_at, dot64_eq, HostColRow.bcast_row_apply]
  exact congrArg (dense h Wh (ix2 d c) + ·) (BcastVec.bcast_vec_row_apply bh _ _ c)

/-- The matrix product of a layer in the program's operations. -/
def dotHost (A : FVec Ideal S50000x128 .f32) (B : FVec Ideal S128x128 .f32) : FVec Ideal S50000x128 .f32 :=
  Host.dotGeneral dot_S50000x128_S128x128_S50000x128_1_0_0_1_n_n none A B

/-- The program's matrix product is the entry-by-entry one. -/
theorem dotHost_eq (A : FVec Ideal S50000x128 .f32) (B : FVec Ideal S128x128 .f32) : dotHost A B = dense A B :=
  dot128_eq A B

/-! ## The program is three layers and the head -/

section
variable (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 x8 x9 x10 x11 x12 x13 x14 x15 x16 x17 x18 x19 : (⟨S128, .f32⟩ : BufTy).Contents (Elt Ideal))
    (x20 : (⟨S128x64, .f32⟩ : BufTy).Contents (Elt Ideal)) (x21 : (⟨S64, .f32⟩ : BufTy).Contents (Elt Ideal))

/-- The first layer's result is the pieces applied to the input features. -/
theorem layer1 : val_main_v63 (F := Ideal) x0 x1 x2 x3 x8 x9 x10 x11
    = bnHost (convHost x1 (dotHost x0 x2) x3) x8 x9 x10 x11 := rfl

/-- The second layer's result is the pieces applied to the first layer's. -/
theorem layer2 : val_main_v116 (F := Ideal) x0 x1 x2 x3 x4 x5 x8 x9 x10 x11 x12 x13 x14 x15
    = bnHost (convHost x1 (dotHost (val_main_v63 (F := Ideal) x0 x1 x2 x3 x8 x9 x10 x11) x4) x5) x12 x13 x14 x15 := rfl

/-- The third layer's result is the pieces applied to the second layer's. -/
theorem layer3 : val_main_v169 (F := Ideal) x0 x1 x2 x3 x4 x5 x6 x7 x8 x9 x10 x11 x12 x13 x14 x15 x16 x17 x18 x19
    = bnHost (convHost x1 (dotHost (val_main_v116 (F := Ideal) x0 x1 x2 x3 x4 x5 x8 x9 x10 x11 x12 x13 x14 x15) x6) x7) x16 x17 x18 x19 := rfl

/-- The program's result is the head applied to the third layer's. -/
theorem layer4 : val_main_v173 (F := Ideal) x0 x1 x2 x3 x4 x5 x6 x7 x8 x9 x10 x11 x12 x13 x14 x15 x16 x17 x18 x19 x20 x21
    = headHost (val_main_v169 (F := Ideal) x0 x1 x2 x3 x4 x5 x6 x7 x8 x9 x10 x11 x12 x13 x14 x15 x16 x17 x18 x19) x20 x21 := rfl

end

/-- The reference program's result is the network with one coefficient per edge. -/
theorem ref_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 x8 x9 x10 x11 x12 x13 x14 x15 x16 x17 x18 x19 : (⟨S128, .f32⟩ : BufTy).Contents (Elt Ideal))
    (x20 : (⟨S128x64, .f32⟩ : BufTy).Contents (Elt Ideal)) (x21 : (⟨S64, .f32⟩ : BufTy).Contents (Elt Ideal)) :
    val_main_v173 (F := Ideal) x0 x1 x2 x3 x4 x5 x6 x7 x8 x9 x10 x11 x12 x13 x14 x15 x16 x17 x18 x19 x20 x21
      = refNet (graphOf x1) eps x0 x2 x3 x4 x5 x6 x7 x8 x9 x10 x11 x12 x13 x14 x15 x16 x17 x18 x19 x20 x21 := by
  rw [layer4, layer3, layer2, layer1, dotHost_eq, dotHost_eq, dotHost_eq, convHost_eq, convHost_eq, convHost_eq,
    bnHost_eq, bnHost_eq, bnHost_eq, headHost_eq]
  rfl

end Cert.Gcn.RefSide

end
-- ==== Proof.Final.lean ====
/-
  The kernel's result is the reference's, as extended reals.

  The four pallas_calls' functions composed with the host's aggregates are the network computed from row-scaled
  features; that network is the network with one coefficient per edge, because every node weight read off the edge
  array is a non-negative real number, by which multiplication distributes over any sum of extended reals; and the
  reference's result is that network.
-/
import proofs.«103472_j87651692577500_2_alg».proof.Proof.KerSide
import proofs.«103472_j87651692577500_2_alg».proof.Proof.KerMath
import proofs.«103472_j87651692577500_2_alg».proof.Proof.RefSide
import proofs.«103472_j87651692577500_2_alg».proof.Proof.GraphOk

set_option maxRecDepth 16384

noncomputable section

namespace Cert.Gcn.Final

open Idealize.ShloMosaic Idealize.ShloMosaic.ValueIdx Cert.Gcn Cert.Gcn.Glue

/-- The kernel's composed value. -/
def kerOut (x0 : (⟨Cert.KernelIdeal.S50000x128, .f32⟩ : BufTy).Contents (Elt Ideal)) (x1 : (⟨Cert.KernelIdeal.S2x800000, .i32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) (x8 : (⟨Cert.KernelIdeal.S128, .f32⟩ : BufTy).Contents (Elt Ideal)) (x9 : (⟨Cert.KernelIdeal.S128, .f32⟩ : BufTy).Contents (Elt Ideal)) (x10 : (⟨Cert.KernelIdeal.S128, .f32⟩ : BufTy).Contents (Elt Ideal)) (x11 : (⟨Cert.KernelIdeal.S128, .f32⟩ : BufTy).Contents (Elt Ideal)) (x12 : (⟨Cert.KernelIdeal.S128, .f32⟩ : BufTy).Contents (Elt Ideal)) (x13 : (⟨Cert.KernelIdeal.S128, .f32⟩ : BufTy).Contents (Elt Ideal)) (x14 : (⟨Cert.KernelIdeal.S128, .f32⟩ : BufTy).Contents (Elt Ideal)) (x15 : (⟨Cert.KernelIdeal.S128, .f32⟩ : BufTy).Contents (Elt Ideal)) (x16 : (⟨Cert.KernelIdeal.S128, .f32⟩ : BufTy).Contents (Elt Ideal)) (x17 : (⟨Cert.KernelIdeal.S128, .f32⟩ : BufTy).Contents (Elt Ideal)) (x18 : (⟨Cert.KernelIdeal.S128, .f32⟩ : BufTy).Contents (Elt Ideal)) (x19 : (⟨Cert.KernelIdeal.S128, .f32⟩ : BufTy).Contents (Elt Ideal)) (x20 : (⟨Cert.KernelIdeal.S128x64, .f32⟩ : BufTy).Contents (Elt Ideal)) (x21 : (⟨Cert.KernelIdeal.S64, .f32⟩ : BufTy).Contents (Elt Ideal)) : Mat 50000 64 :=
  (Region3.G (agg (Region2.G (agg (Region1.G (agg (Region0.G x0 x2 (dinvCol x1)) (srcOf x1) (dstOf x1)) (Region0.G x0 x2 (dinvCol x1)) (dinvCol x1) (row x3) (row x8) (row x9) (row x10) (row x11) x4) (srcOf x1) (dstOf x1)) (Region1.G (agg (Region0.G x0 x2 (dinvCol x1)) (srcOf x1) (dstOf x1)) (Region0.G x0 x2 (dinvCol x1)) (dinvCol x1) (row x3) (row x8) (row x9) (row x10) (row x11) x4) (dinvCol x1) (row x5) (row x12) (row x13) (row x14) (row x15) x6) (srcOf x1) (dstOf x1)) (Region2.G (agg (Region1.G (agg (Region0.G x0 x2 (dinvCol x1)) (srcOf x1) (dstOf x1)) (Region0.G x0 x2 (dinvCol x1)) (dinvCol x1) (row x3) (row x8) (row x9) (row x10) (row x11) x4) (srcOf x1) (dstOf x1)) (Region1.G (agg (Region0.G x0 x2 (dinvCol x1)) (srcOf x1) (dstOf x1)) (Region0.G x0 x2 (dinvCol x1)) (dinvCol x1) (row x3) (row x8) (row x9) (row x10) (row x11) x4) (dinvCol x1) (row x5) (row x12) (row x13) (row x14) (row x15) x6) (dinvCol x1) (row x7) (row x16) (row x17) (row x18) (row x19) x20 (row64 x21))

/-- The composed value is the network from row-scaled features. -/
theorem kerOut_eq_kerNet (x0 : (⟨Cert.KernelIdeal.S50000x128, .f32⟩ : BufTy).Contents (Elt Ideal)) (x1 : (⟨Cert.KernelIdeal.S2x800000, .i32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) (x8 : (⟨Cert.KernelIdeal.S128, .f32⟩ : BufTy).Contents (Elt Ideal)) (x9 : (⟨Cert.KernelIdeal.S128, .f32⟩ : BufTy).Contents (Elt Ideal)) (x10 : (⟨Cert.KernelIdeal.S128, .f32⟩ : BufTy).Contents (Elt Ideal)) (x11 : (⟨Cert.KernelIdeal.S128, .f32⟩ : BufTy).Contents (Elt Ideal)) (x12 : (⟨Cert.KernelIdeal.S128, .f32⟩ : BufTy).Contents (Elt Ideal)) (x13 : (⟨Cert.KernelIdeal.S128, .f32⟩ : BufTy).Contents (Elt Ideal)) (x14 : (⟨Cert.KernelIdeal.S128, .f32⟩ : BufTy).Contents (Elt Ideal)) (x15 : (⟨Cert.KernelIdeal.S128, .f32⟩ : BufTy).Contents (Elt Ideal)) (x16 : (⟨Cert.KernelIdeal.S128, .f32⟩ : BufTy).Contents (Elt Ideal)) (x17 : (⟨Cert.KernelIdeal.S128, .f32⟩ : BufTy).Contents (Elt Ideal)) (x18 : (⟨Cert.KernelIdeal.S128, .f32⟩ : BufTy).Contents (Elt Ideal)) (x19 : (⟨Cert.KernelIdeal.S128, .f32⟩ : BufTy).Contents (Elt Ideal)) (x20 : (⟨Cert.KernelIdeal.S128x64, .f32⟩ : BufTy).Contents (Elt Ideal)) (x21 : (⟨Cert.KernelIdeal.S64, .f32⟩ : BufTy).Contents (Elt Ideal)) :
    kerOut x0 x1 x2 x3 x4 x5 x6 x7 x8 x9 x10 x11 x12 x13 x14 x15 x16 x17 x18 x19 x20 x21
      = kerNet (graphOf x1) eps x0 x2 x3 x4 x5 x6 x7 x8 x9 x10 x11 x12 x13 x14 x15 x16 x17 x18 x19 x20 x21 := by
  have e1 : Region0.G x0 x2 (dinvCol x1) = scaled (graphOf x1) (dense x0 x2) := KerMath.layer0 x1 x0 x2
  have e2 : ∀ (hws : Mat 50000 128) (b gm be mu var : Vct 128) (W : Mat 128 128),
      Region1.G (agg hws (srcOf x1) (dstOf x1)) hws (dinvCol x1) (row b) (row gm) (row be) (row mu) (row var) W
        = scaled (graphOf x1) (dense (bnRelu eps (kerPre (graphOf x1) hws b) gm be mu var) W) :=
    fun hws b gm be mu var W => KerMath.layer x1 hws b gm be mu var W
  have e3 : ∀ (hws : Mat 50000 128) (b gm be mu var : Vct 128) (W : Mat 128 128),
      Region2.G (agg hws (srcOf x1) (dstOf x1)) hws (dinvCol x1) (row b) (row gm) (row be) (row mu) (row var) W
        = scaled (graphOf x1) (dense (bnRelu eps (kerPre (graphOf x1) hws b) gm be mu var) W) :=
    fun hws b gm be mu var W => KerMath.layer x1 hws b gm be mu var W
  have e4 : ∀ (hws : Mat 50000 128) (b gm be mu var : Vct 128) (Wh : Mat 128 64) (bh : Vct 64),
      Region3.G (agg hws (srcOf x1) (dstOf x1)) hws (dinvCol x1) (row b) (row gm) (row be) (row mu) (row var) Wh (row64 bh)
        = fun i => dense (bnRelu eps (kerPre (graphOf x1) hws b) gm be mu var) Wh i + bh (ix1 (i 1)) :=
    fun hws b gm be mu var Wh bh => KerMath.head x1 hws b gm be mu var Wh bh
  unfold kerOut
  rw [e1, e2, e3, e4]
  rfl

/-- The kernel's composed value is the reference's result. -/
theorem kerOut_eq_ref (x0 : (⟨Cert.KernelIdeal.S50000x128, .f32⟩ : BufTy).Contents (Elt Ideal)) (x1 : (⟨Cert.KernelIdeal.S2x800000, .i32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) (x8 : (⟨Cert.KernelIdeal.S128, .f32⟩ : BufTy).Contents (Elt Ideal)) (x9 : (⟨Cert.KernelIdeal.S128, .f32⟩ : BufTy).Contents (Elt Ideal)) (x10 : (⟨Cert.KernelIdeal.S128, .f32⟩ : BufTy).Contents (Elt Ideal)) (x11 : (⟨Cert.KernelIdeal.S128, .f32⟩ : BufTy).Contents (Elt Ideal)) (x12 : (⟨Cert.KernelIdeal.S128, .f32⟩ : BufTy).Contents (Elt Ideal)) (x13 : (⟨Cert.KernelIdeal.S128, .f32⟩ : BufTy).Contents (Elt Ideal)) (x14 : (⟨Cert.KernelIdeal.S128, .f32⟩ : BufTy).Contents (Elt Ideal)) (x15 : (⟨Cert.KernelIdeal.S128, .f32⟩ : BufTy).Contents (Elt Ideal)) (x16 : (⟨Cert.KernelIdeal.S128, .f32⟩ : BufTy).Contents (Elt Ideal)) (x17 : (⟨Cert.KernelIdeal.S128, .f32⟩ : BufTy).Contents (Elt Ideal)) (x18 : (⟨Cert.KernelIdeal.S128, .f32⟩ : BufTy).Contents (Elt Ideal)) (x19 : (⟨Cert.KernelIdeal.S128, .f32⟩ : BufTy).Contents (Elt Ideal)) (x20 : (⟨Cert.KernelIdeal.S128x64, .f32⟩ : BufTy).Contents (Elt Ideal)) (x21 : (⟨Cert.KernelIdeal.S64, .f32⟩ : BufTy).Contents (Elt Ideal)) :
    kerOut x0 x1 x2 x3 x4 x5 x6 x7 x8 x9 x10 x11 x12 x13 x14 x15 x16 x17 x18 x19 x20 x21
      = Cert.ReferenceIdeal.Read.val_main_v173 (F := Ideal) x0 x1 x2 x3 x4 x5 x6 x7 x8 x9 x10 x11 x12 x13 x14 x15 x16 x17 x18 x19 x20 x21 := by
  rw [kerOut_eq_kerNet, net_eq _ (graphOf_ok x1)]
  exact (RefSide.ref_eq x0 x1 x2 x3 x4 x5 x6 x7 x8 x9 x10 x11 x12 x13 x14 x15 x16 x17 x18 x19 x20 x21).symm

end Cert.Gcn.Final

end
-- ==== Proof.lean ====
/-
  A three-layer graph convolution network as four pallas_calls against its plain reference.

  The kernel keeps, per layer, the features scaled row by row with the node weights dinv (the inverse square roots of
  the degrees): the first call forms (x·W₁)·dinv, each fused call forms from the aggregate of the scaled rows over a
  node's incoming edges the convolution dinv·(aggregate + own row) + bias, normalises and rectifies it, multiplies
  with the next weights and scales again, and the last call applies the linear head. The reference gives every edge its
  own coefficient dinv(src)·dinv(dst). The two agree over the extended reals because a node weight is a non-negative
  real number, whatever the inputs are: multiplication by such a number distributes over the edge sum. Neither side's
  proof uses that the inputs are finite.

  The frames of the two kernel programs are the generated ones; the reference's frame is its generated run with the
  result forgotten; the idealization rewrote nothing.
-/
import proofs.«103472_j87651692577500_2_alg».proof.Defs
import proofs.«103472_j87651692577500_2_alg».proof.Proof.Gen.Kernel
import proofs.«103472_j87651692577500_2_alg».proof.Proof.Gen.Kernel.Skeleton
import proofs.«103472_j87651692577500_2_alg».proof.Proof.Gen.Kernel.Launch
import proofs.«103472_j87651692577500_2_alg».proof.Proof.Gen.Kernel.Points
import proofs.«103472_j87651692577500_2_alg».proof.Proof.Gen.Kernel.Frame
import proofs.«103472_j87651692577500_2_alg».proof.Proof.Gen.KernelIdeal
import proofs.«103472_j87651692577500_2_alg».proof.Proof.Gen.KernelIdeal.Skeleton
import proofs.«103472_j87651692577500_2_alg».proof.Proof.Gen.KernelIdeal.Launch
import proofs.«103472_j87651692577500_2_alg».proof.Proof.Gen.KernelIdeal.Points
import proofs.«103472_j87651692577500_2_alg».proof.Proof.Gen.KernelIdeal.Frame
import proofs.«103472_j87651692577500_2_alg».proof.Proof.Gen.ReferenceIdeal
import proofs.«103472_j87651692577500_2_alg».proof.Proof.Gen.Pre_finite_inputs
import proofs.«103472_j87651692577500_2_alg».proof.Proof.Gen.ReferenceIdeal.Run
import proofs.«103472_j87651692577500_2_alg».proof.Proof.Gen.ReferenceIdeal.Read
import proofs.«103472_j87651692577500_2_alg».proof.Proof.Final
import Idealize.ShloMosaic.Adequacy
import Idealize.ShloMosaic.Init

set_option maxRecDepth 16384

noncomputable section

namespace Cert.Proof

open Idealize.ShloMosaic Idealize.SL.Sem

/-- The kernel's run ends with the result buffer at the composed value of the launch arrays, the arguments unchanged;
    the reference's run ends at its composed term of arrays that agree with them: one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.Final.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r hr c => ?_) (Cert.KernelIdeal.Run.run (F := Ideal) m ρ)
    have h := hr c
    exact ⟨h.1.trans (Cert.Gcn.KerSide.out3 m ρ c),
      (h.2 _ (Cert.KernelIdeal.Gen.mem_uc Cert.KernelIdeal.main_arg0 (by decide))).trans (Cert.KernelIdeal.Gen.W8_main_arg0 m ρ c),
      (h.2 _ (Cert.KernelIdeal.Gen.mem_uc Cert.KernelIdeal.main_arg1 (by decide))).trans (Cert.KernelIdeal.Gen.W8_main_arg1 m ρ c),
      (h.2 _ (Cert.KernelIdeal.Gen.mem_uc Cert.KernelIdeal.main_arg2 (by decide))).trans (Cert.KernelIdeal.Gen.W8_main_arg2 m ρ c),
      (h.2 _ (Cert.KernelIdeal.Gen.mem_uc Cert.KernelIdeal.main_arg3 (by decide))).trans (Cert.KernelIdeal.Gen.W8_main_arg3 m ρ c),
      (h.2 _ (Cert.KernelIdeal.Gen.mem_uc Cert.KernelIdeal.main_arg4 (by decide))).trans (Cert.KernelIdeal.Gen.W8_main_arg4 m ρ c),
      (h.2 _ (Cert.KernelIdeal.Gen.mem_uc Cert.KernelIdeal.main_arg5 (by decide))).trans (Cert.KernelIdeal.Gen.W8_main_arg5 m ρ c),
      (h.2 _ (Cert.KernelIdeal.Gen.mem_uc Cert.KernelIdeal.main_arg6 (by decide))).trans (Cert.KernelIdeal.Gen.W8_main_arg6 m ρ c),
      (h.2 _ (Cert.KernelIdeal.Gen.mem_uc Cert.KernelIdeal.main_arg7 (by decide))).trans (Cert.KernelIdeal.Gen.W8_main_arg7 m ρ c),
      (h.2 _ (Cert.KernelIdeal.Gen.mem_uc Cert.KernelIdeal.main_arg8 (by decide))).trans (Cert.KernelIdeal.Gen.W8_main_arg8 m ρ c),
      (h.2 _ (Cert.KernelIdeal.Gen.mem_uc Cert.KernelIdeal.main_arg9 (by decide))).trans (Cert.KernelIdeal.Gen.W8_main_arg9 m ρ c),
      (h.2 _ (Cert.KernelIdeal.Gen.mem_uc Cert.KernelIdeal.main_arg10 (by decide))).trans (Cert.KernelIdeal.Gen.W8_main_arg10 m ρ c),
      (h.2 _ (Cert.KernelIdeal.Gen.mem_uc Cert.KernelIdeal.main_arg11 (by decide))).trans (Cert.KernelIdeal.Gen.W8_main_arg11 m ρ c),
      (h.2 _ (Cert.KernelIdeal.Gen.mem_uc Cert.KernelIdeal.main_arg12 (by decide))).trans (Cert.KernelIdeal.Gen.W8_main_arg12 m ρ c),
      (h.2 _ (Cert.KernelIdeal.Gen.mem_uc Cert.KernelIdeal.main_arg13 (by decide))).trans (Cert.KernelIdeal.Gen.W8_main_arg13 m ρ c),
      (h.2 _ (Cert.KernelIdeal.Gen.mem_uc Cert.KernelIdeal.main_arg14 (by decide))).trans (Cert.KernelIdeal.Gen.W8_main_arg14 m ρ c),
      (h.2 _ (Cert.KernelIdeal.Gen.mem_uc Cert.KernelIdeal.main_arg15 (by decide))).trans (Cert.KernelIdeal.Gen.W8_main_arg15 m ρ c),
      (h.2 _ (Cert.KernelIdeal.Gen.mem_uc Cert.KernelIdeal.main_arg16 (by decide))).trans (Cert.KernelIdeal.Gen.W8_main_arg16 m ρ c),
      (h.2 _ (Cert.KernelIdeal.Gen.mem_uc Cert.KernelIdeal.main_arg17 (by decide))).trans (Cert.KernelIdeal.Gen.W8_main_arg17 m ρ c),
      (h.2 _ (Cert.KernelIdeal.Gen.mem_uc Cert.KernelIdeal.main_arg18 (by decide))).trans (Cert.KernelIdeal.Gen.W8_main_arg18 m ρ c),
      (h.2 _ (Cert.KernelIdeal.Gen.mem_uc Cert.KernelIdeal.main_arg19 (by decide))).trans (Cert.KernelIdeal.Gen.W8_main_arg19 m ρ c),
      (h.2 _ (Cert.KernelIdeal.Gen.mem_uc Cert.KernelIdeal.main_arg20 (by decide))).trans (Cert.KernelIdeal.Gen.W8_main_arg20 m ρ c),
      (h.2 _ (Cert.KernelIdeal.Gen.mem_uc Cert.KernelIdeal.main_arg21 (by decide))).trans (Cert.KernelIdeal.Gen.W8_main_arg21 m ρ c)⟩
  · refine (θ_run Cert.ReferenceIdeal.defs _ _).mono (fun r hr c => ⟨(hr c).1.trans ?_, (hr c).2⟩)
      (Cert.ReferenceIdeal.Value.run (F := Ideal) m' ρ')
    refine (Cert.ReferenceIdeal.Read.val_main_v173_eq (F := Ideal) m' c).trans
      (Eq.trans ?_ (Cert.Gcn.Final.kerOut_eq_ref _ _ _ _ _ _ _ _ _ _ _ _ _ _ _ _ _ _ _ _ _ _).symm)
    exact (congr (congr (congr (congr (congr (congr (congr (congr (congr (congr (congr (congr (congr (congr (congr (congr (congr (congr (congr (congr (congr (congrArg (Cert.ReferenceIdeal.Read.val_main_v173 (F := Ideal)) (hagree c).1) (hagree c).2.1) (hagree c).2.2.1) (hagree c).2.2.2.1) (hagree c).2.2.2.2.1) (hagree c).2.2.2.2.2.1) (hagree c).2.2.2.2.2.2.1) (hagree c).2.2.2.2.2.2.2.1) (hagree c).2.2.2.2.2.2.2.2.1) (hagree c).2.2.2.2.2.2.2.2.2.1) (hagree c).2.2.2.2.2.2.2.2.2.2.1) (hagree c).2.2.2.2.2.2.2.2.2.2.2.1) (hagree c).2.2.2.2.2.2.2.2.2.2.2.2.1) (hagree c).2.2.2.2.2.2.2.2.2.2.2.2.2.1) (hagree c).2.2.2.2.2.2.2.2.2.2.2.2.2.2.1) (hagree c).2.2.2.2.2.2.2.2.2.2.2.2.2.2.2.1) (hagree c).2.2.2.2.2.2.2.2.2.2.2.2.2.2.2.2.1) (hagree c).2.2.2.2.2.2.2.2.2.2.2.2.2.2.2.2.2.1) (hagree c).2.2.2.2.2.2.2.2.2.2.2.2.2.2.2.2.2.2.1) (hagree c).2.2.2.2.2.2.2.2.2.2.2.2.2.2.2.2.2.2.2.1) (hagree c).2.2.2.2.2.2.2.2.2.2.2.2.2.2.2.2.2.2.2.2.1) (hagree c).2.2.2.2.2.2.2.2.2.2.2.2.2.2.2.2.2.2.2.2.2)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
